-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048 : Shape := ⟨2, ![8, 2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : IVec S8x2048 32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x2048 : Shape := ⟨2, ![8, 2048]⟩
abbrev S8x512x512 : Shape := ⟨3, ![8, 512, 512]⟩
abbrev S8x256x512 : Shape := ⟨3, ![8, 256, 512]⟩
abbrev S8x512 : Shape := ⟨2, ![8, 512]⟩
abbrev S8x256 : Shape := ⟨2, ![8, 256]⟩
abbrev S8x512x1 : Shape := ⟨3, ![8, 512, 1]⟩
abbrev S8x1x256 : Shape := ⟨3, ![8, 1, 256]⟩
abbrev S8x512x256 : Shape := ⟨3, ![8, 512, 256]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S8x2048x512, .bf16⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x512x512, .bf16⟩
  | .local _ .vmem, ⟨1, _⟩ => ⟨S8x512x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x512, .i32⟩
  | .local _ .vmem, ⟨5, _⟩ => ⟨S8x512, .i32⟩
  | .local _ .vmem, ⟨6, _⟩ => ⟨S8x256, .i32⟩
  | .local _ .vmem, ⟨7, _⟩ => ⟨S8x256, .i32⟩
  | .local _ .vmem, ⟨8, _⟩ => ⟨S8x512, .f32⟩
  | .local _ .vmem, ⟨9, _⟩ => ⟨S8x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x512x512_S8x512 : S8x512x512.Reduces [2] S8x512
  shapeCasts_S8x512_S8x512x1 : S8x512.ShapeCasts S8x512x1
  reduces_S8x256x512_S8x256 : S8x256x512.Reduces [2] S8x256
  shapeCasts_S8x256_S8x1x256 : S8x256.ShapeCasts S8x1x256
  broadcasts_S8x512x1_S8x512x256 : S8x512x1.Broadcasts S8x512x256
  broadcasts_S8x1x256_S8x512x256 : S8x1x256.Broadcasts S8x512x256
  inb_S8x256_S8x256_0_0 : ∀ a, (![0, 0] : Fin 2 → Nat) a + S8x256.size a ≤ S8x256.size a
  h_S8x256 : 0 < S8x256.numel
  natLt_1_32 : 1 < 32
  reduces_S8x512x256_S8x512 : S8x512x256.Reduces [2] S8x512
  shapeCasts_S8x512_S8x512 : S8x512.ShapeCasts S8x512
  reducesTo_S8x2048_S_d0_1 : S8x2048.ReducesTo [0, 1] S_
  h_S_ : 0 < S_.numel
  dot_S8x512x512_S8x256x512_S8x512x256_2_2_1_1_0_0_wf : DotDims.WF S8x512x512 S8x256x512 S8x512x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S8x2048x512.size a
  hwx0_0 : ∀ i : grid0.Coords, EltTy.bits .bf16 = 32 ∨ (Rect.block (s := S8x2048x512) S8x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x2048x512.size a
  hwx0_1 : ∀ i : grid0.Coords, EltTy.bits .bf16 = 32 ∨ (Rect.block (s := S8x2048x512) S8x256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x2048.size a
  hwx0_2 : ∀ i : grid0.Coords, EltTy.bits .i32 = 32 ∨ (Rect.block (s := S8x2048) S8x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x2048.size a
  hwx0_3 : ∀ i : grid0.Coords, EltTy.bits .i32 = 32 ∨ (Rect.block (s := S8x2048) S8x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x2048.size a
  hwx0_4 : ∀ i : grid0.Coords, EltTy.bits .f32 = 32 ∨ (Rect.block (s := S8x2048) S8x512.size (cc0_transform_4 i) (hinb0_4 i)).WholeWords (EltTy.packing .f32)

variable [Facts₀]

def dot_S8x512x512_S8x256x512_S8x512x256_2_2_1_1_0_0 : DotDims S8x512x512 S8x256x512 S8x512x256 where
  lhsContracting := [2]
  rhsContracting := [2]
  lhsNonContracting := [1]
  rhsNonContracting := [1]
  lhsBatch := [0]
  rhsBatch := [0]
  wf := dot_S8x512x512_S8x256x512_S8x512x256_2_2_1_1_0_0_wf

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S8x2048x1, .i32⟩
  | .hbm, ⟨3, _⟩ => ⟨S8x1x2048, .i32⟩
  | .hbm, ⟨4, _⟩ => ⟨S8x2048x2048, .i32⟩
  | .hbm, ⟨5, _⟩ => ⟨S8x2048x2048, .i32⟩
  | .hbm, ⟨6, _⟩ => ⟨S8x2048x2048, .i1⟩
  | .hbm, ⟨7, _⟩ => ⟨S8x2048x2048, .f32⟩
  | .hbm, ⟨8, _⟩ => ⟨S8x2048x512, .f32⟩
  | .hbm, ⟨9, _⟩ => ⟨S_, .f32⟩
  | .hbm, ⟨10, _⟩ => ⟨S8x2048, .f32⟩
  | .hbm, ⟨11, _⟩ => ⟨S8x2048x2048, .f32⟩
  | .hbm, ⟨12, _⟩ => ⟨S8x2048x1, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .i1⟩
  | .hbm, ⟨27, _⟩ => ⟨S_, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x512_S8x2048_d2 : S8x2048x512.ReducesTo [2] S8x2048
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.K.Conds.lean ====
/-
  The one branch of the kernel body: it tests whether the second grid coordinate (the index of the
  column tile, the axis the row sums are accumulated over) is zero. Over the 4 x 8 grid, read in
  row-major order, that is exactly the points whose position is a multiple of 8: the first column
  tile of each of the four row tiles, where the accumulator is reset.
-/
import proofs.«149102_j6339371729129_2_alg».proof.Proof.Gen.Kernel.Launch
import proofs.«149102_j6339371729129_2_alg».proof.Proof.Gen.Kernel.Skeleton
import proofs.«149102_j6339371729129_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as a function of the grid coordinates: "the column-tile index is zero". -/
abbrev resetCond (i : grid0.Coords) : Prop :=
  (Scalar.cmpi .ne (Scalar.extui (Scalar.cmpi .eq (BitVec.ofNat 32 (i 1).val) 0#32)) 0#32) = 1#1

/-- It holds exactly at the points whose position is a multiple of 8 (the row-major position of
    (qi, ki) is 8 qi + ki). -/
theorem resetCond_iff : ∀ t : Fin cfg0.N, resetCond (grid0.coords t) ↔ t.val % 8 = 0 :=
  (by decide +kernel : ∀ t : Fin grid0.N, resetCond (grid0.coords t) ↔ t.val % 8 = 0)

/-- One staging buffer of the output window, through which its contents are stated. -/
abbrev outView : View sig .tc .vmem S8x512 .f32 := (Memref.whole cc0_stg4_0 : Memref sig .tc .vmem S8x512 .f32).view

end Cert.Kernel.Acc

end
-- ==== Proof.K.RunReset.lean ====
/-
  The kernel body at a point where the accumulator is reset (column-tile index 0), run symbolically on
  whole staging buffers: the four input buffers hold the row tile x0, the column tile x1 and their
  segment labels x2, x3; the output buffer holds anything. The body stores zeros, then stores
  "what it just read back + the row sums of this tile's losses". The pieces written are found by the run.
-/
import proofs.«149102_j6339371729129_2_alg».proof.Proof.K.Conds

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's two stores leave in the output's staging buffer when the accumulator is reset,
    with the proof that the body runs from the inputs at their contents and the output at anything to the
    inputs unchanged and the output with those pieces written. -/
noncomputable def bodyReset (c : Dev nD) (i : grid0.Coords)
    (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) :
    { L : List (View.Piece (Elt F) S8x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__contrastive_kernel i arg2 harg2 arg3 harg3 arg4 harg4 arg5 harg5 arg6 harg6) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Acc

end
-- ==== Proof.K.RunCarry.lean ====
/-
  The kernel body at a point where the accumulator is carried (column-tile index not 0), run symbolically on
  whole staging buffers: the inputs as before, the output buffer at the running row sums xo the point
  before left. The body stores "xo + the row sums of this tile's losses". The piece written is found by the run.
-/
import proofs.«149102_j6339371729129_2_alg».proof.Proof.K.RunReset

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body's one store leaves in the output's staging buffer when the accumulator is carried,
    with the proof that the body runs from the inputs at their contents and the output at the running sums
    to the inputs unchanged and the output with that piece written. -/
noncomputable def bodyCarry (c : Dev nD) (i : grid0.Coords)
    (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32)
    (xo : Vec F S8x512 .f32) :
    { L : List (View.Piece (Elt F) S8x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__contrastive_kernel i arg2 harg2 arg3 harg3 arg4 harg4 arg5 harg5 arg6 harg6) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Acc

end
-- ==== Proof.K.AccData.lean ====
/-
  The proof data of the one pipeline, and the body's obligation at every grid point.

  The grid is 4 x 8: point 8 qi + ki works on row tile qi (512 rows of each of the 8 batches) against
  column tile ki (256 rows). The output window's block depends on qi only, so its staging buffer is an
  accumulator over the eight points of a row tile: reset at ki = 0, added to at every point, written back
  after ki = 7. What it holds after each point is defined by recursion on the position (`accAt`).

  The two prediction windows read ONE array (the cast predictions) and the two label windows read ONE array
  (the labels): each of those arrays is held half by one window and half by the other.
-/
import proofs.«149102_j6339371729129_2_alg».proof.Proof.K.RunCarry

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: as launched, after the one host line before it (the change of
    format of the predictions). -/
abbrev V₀ (c : Dev nD) : Valuation τ sig (Elt F) := StableHlo.after (List.flatten [hostOps0]) (fun b => m (c, b))
abbrev V (c : Dev nD) (b : Ref sig .tc) : Buf (Elt F) ((c : Thread nD τ).loc b) := V₀ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the
    block index has not moved. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the
    block index has not moved. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the
    block index has not moved. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, as the pipeline passes them -/

abbrev ms0 (t : Fin cfg0.N) : Memref sig .tc .vmem S8x512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x512 .f32 := win0_4.stage (cfg0.slots t 4)
abbrev hs4 (t : Fin cfg0.N) : (ms4 t).IsWhole := hstage0_4 ((cfg0.slots t 4).cast nbuf0_4)

/-! ## What the output's buffer holds after the body, per case -/

/-- At a reset point the body's two stores (zeros, then the sums) each fill the whole block, so they cover it. -/
theorem coverReset (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) (y : S8x512.Idx) :
    ∃ pc ∈ (bodyReset c i arg2 harg2 arg3 harg3 arg4 harg4 arg5 harg5 arg6 harg6 hc0 x0 x1 x2 x3).1, y ∈ pc.1.set :=
  View.cover_of_tiledL (bodyReset c i arg2 harg2 arg3 harg3 arg4 harg4 arg5 harg5 arg6 harg6 hc0 x0 x1 x2 x3).1 S8x512.size (by sl_kernel_rfl) y

/-- What a reset point leaves in the output's staging buffer: its pieces read back. -/
def outReset (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) : Vec F S8x512 .f32 :=
  outView.read (Elt F) (outView.writes (Elt F) outView.junk (bodyReset c i arg2 harg2 arg3 harg3 arg4 harg4 arg5 harg5 arg6 harg6 hc0 x0 x1 x2 x3).1)

/-- At a carrying point the body's one store fills the whole block. -/
theorem coverCarry (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32) (xo : Vec F S8x512 .f32) (y : S8x512.Idx) :
    ∃ pc ∈ (bodyCarry c i arg2 harg2 arg3 harg3 arg4 harg4 arg5 harg5 arg6 harg6 hc0 x0 x1 x2 x3 xo).1, y ∈ pc.1.set :=
  View.cover_of_tiledL (bodyCarry c i arg2 harg2 arg3 harg3 arg4 harg4 arg5 harg5 arg6 harg6 hc0 x0 x1 x2 x3 xo).1 S8x512.size (by sl_kernel_rfl) y

/-- What a carrying point leaves in the output's staging buffer, from what the point before left (`xo`). -/
def outCarry (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32) (xo : Vec F S8x512 .f32) : Vec F S8x512 .f32 :=
  outView.read (Elt F) (outView.writes (Elt F) outView.junk (bodyCarry c i arg2 harg2 arg3 harg3 arg4 harg4 arg5 harg5 arg6 harg6 hc0 x0 x1 x2 x3 xo).1)

/-! ## The accumulation -/

/-- What the output's staging buffer holds after the body at position `n`: at a multiple of 8 the reset case on the
    point's blocks, elsewhere the carrying case over what position `n - 1` left (the buffer is not written back
    between). -/
def accAt (c : Dev nD) : (n : ℕ) → n < cfg0.N → Vec F S8x512 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((resetCond_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outCarry c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((resetCond_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_reset (c : Dev nD) (t : Fin cfg0.N) (h0 : t.val % 8 = 0) :
    accAt m c t.val t.isLt = outReset c (grid0.coords t) (ms0 t) (hs0 t) (ms1 t) (hs1 t) (ms2 t) (hs2 t) (ms3 t) (hs3 t) (ms4 t) (hs4 t) ((resetCond_iff t).mpr h0) (iblk m c 0 t) (iblk m c 1 t) (iblk m c 2 t) (iblk m c 3 t) := by
  obtain ⟨n, hn⟩ := t
  cases n with
  | zero => exact rfl
  | succ n => exact (dif_pos h0).trans rfl

theorem accAt_carry (c : Dev nD) (t : Fin cfg0.N) (h0 : ¬t.val % 8 = 0) :
    accAt m c t.val t.isLt = outCarry c (grid0.coords t) (ms0 t) (hs0 t) (ms1 t) (hs1 t) (ms2 t) (hs2 t) (ms3 t) (hs3 t) (ms4 t) (hs4 t) (fun h => h0 ((resetCond_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its
    block and the output's at the accumulation; the invariant the scoped rest and the generator register; nothing
    owed. The cast predictions are held half by window 0 and half by window 1, the labels half by window 2 and
    half by window 3. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (accAt m c t.val t.isLt) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-- At a carrying point the output's staging buffer holds what the body left at the point before: the point is not
    the first and the buffer was not written back between (write-backs follow the positions ≡ 7 mod 8). -/
theorem before4_carry (c : Dev nD) (t : Fin cfg0.N) (h0 : ¬t.val % 8 = 0) (d) :
    (dats m 0 c).before 4 t d = (accAt m c (t.val - 1) (Nat.lt_of_le_of_lt (Nat.sub_le _ _) t.isLt)) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the position says which case the point is in; at a
    carrying point the output's buffer holds what the point before left; so that case's run applies. The invariant
    passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 32 := lt_of_lt_of_eq t.isLt (show cfg0.N = 32 from N_0)
  by_cases h0 : t.val % 8 = 0
  · rw [accAt_reset m c t h0]
    unfold outReset
    iintro ⟨HΦ, Ho, ⟨%d0, H0⟩, ⟨%d1, H1⟩, ⟨%d2, H2⟩, ⟨%d3, H3⟩, ⟨%d4, H4⟩⟩
    iapply ((bodyReset c (grid0.coords t) _ _ _ _ _ _ _ _ _ _ ((resetCond_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset c _ _ _ _ _ _ _ _ _ _ _ _ _ _ _ _)
  · rw [accAt_carry m c t h0]
    simp only [before4_carry m c t h0]
    unfold outCarry
    iintro ⟨HΦ, Ho, ⟨%d0, H0⟩, ⟨%d1, H1⟩, ⟨%d2, H2⟩, ⟨%d3, H3⟩, ⟨%d4, H4⟩⟩
    iapply ((bodyCarry c (grid0.coords t) _ _ _ _ _ _ _ _ _ _ (fun h => h0 ((resetCond_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCarry c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Acc

end
-- ==== Proof.K.Run.lean ====
/-
  The run of the whole program: one host line (the change of format of the predictions), the kernel region over
  the 4 x 8 grid, then four host lines (the sum of the row sums and the division by the number of pairs).

  Two things are particular to this program. The kernel is handed the cast predictions twice (as row tiles and as
  column tiles) and the labels twice: each of those two arrays is split between its two windows, half the share
  each, when the region is entered; both halves are only read. And the lines after the region touch just the
  region's result and four scalars, so they run within that small set of buffers while the shared arrays stay with
  their windows.
-/
import proofs.«149102_j6339371729129_2_alg».proof.Proof.K.AccData
import Idealize.ShloMosaic.Lib.Pipeline.FrameSuffix

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the line before the region, the region, the lines after it. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The arrays at entry: the two shared ones split in halves -/

/-- The proof data's arrays, each whole, at its share. -/
theorem arrays_eq' (c : Dev nD) (G : (w : Fin cfg0.W) → Buf (Elt F) ((cfg0.win w).arr.view.loc (c.tc : Thread nD τ))) :
    (dats m 0 c).arrays G = bigSep Finset.univ fun w : Fin cfg0.W =>
      ((((c.tc : Thread nD τ).loc (Pipeline.arrRef spec0 w)) ↦{(dats m 0 c).share w} G w : sProp 𝕄)) := by
  unfold Pipeline.Dat.arrays
  exact bigSep_congr fun w _ => by rw [(arr_whole0 w).set_eq_univ]

/-- The three distinct buffers behind the five windows' arrays, whole at the full share, make the five windows'
    arrays at their shares: the cast predictions halved between windows 0 and 1, the labels between windows 2 and 3. -/
theorem hsplit (c : Dev nD) :
    (Pipeline.arrBufs spec0 c (V m c) : sProp 𝕄) ⊢ (dats m 0 c).arrays ((dats m 0 c).arrAt · 0) := by
  rw [arrays_eq', bigSep_W0]
  unfold Pipeline.arrBufs
  rw [bigSep_eq_bigSepL_of_eq [main_v0, main_arg1, main_v1] (by decide) (by decide)]
  refine (show iprop((((c.tc : Thread nD τ).loc main_v0) ↦{fullShare} V m c main_v0) ∗ (((c.tc : Thread nD τ).loc main_arg1) ↦{fullShare} V m c main_arg1)
    ∗ (((c.tc : Thread nD τ).loc main_v1) ↦{fullShare} V m c main_v1)) ⊢ _ from ?_)
  iintro ⟨H0, H1, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H4

/-! ## The lines after the region -/

/-- The TensorCore's references as device buffers. -/
abbrev devEmb : Ref sig .tc ↪ DevRef τ sig := ⟨Proc.devRef (sig := sig) (.tc : Proc τ), Proc.devRef_injective _⟩

/-- The references the lines after the region run within: the region's result and the buffers that bypass the region. -/
def tailT : Finset (Ref sig .tc) := insert main_v1 (Pipeline.restRefs sig spec0)
def tailS : Finset (DevRef τ sig) := tailT.map devEmb

theorem v1_not_rest : main_v1 ∉ Pipeline.restRefs sig spec0 := by
  intro h
  have := (Finset.mem_sdiff.mp h).2
  exact this (Finset.mem_image.mpr ⟨4, Finset.mem_univ _, rfl⟩)

theorem mem_rest_arg0 : main_arg0 ∈ Pipeline.restRefs sig spec0 := Pipeline.mem_restRefs_of main_arg0 (by decide) (by decide)
theorem mem_rest_cst : main_cst ∈ Pipeline.restRefs sig spec0 := Pipeline.mem_restRefs_of main_cst (by decide) (by decide)
theorem mem_rest_v2 : main_v2 ∈ Pipeline.restRefs sig spec0 := Pipeline.mem_restRefs_of main_v2 (by decide) (by decide)
theorem mem_rest_cst0 : main_cst_0 ∈ Pipeline.restRefs sig spec0 := Pipeline.mem_restRefs_of main_cst_0 (by decide) (by decide)
theorem mem_rest_v3 : main_v3 ∈ Pipeline.restRefs sig spec0 := Pipeline.mem_restRefs_of main_v3 (by decide) (by decide)

theorem memS (r : Ref sig .tc) (h : r ∈ tailT) : Proc.devRef (τ := τ) .tc r ∈ tailS := Finset.mem_map_of_mem devEmb h

theorem tail_sub : ∀ op ∈ (hostOps1 : List (HloOp τ sig (Elt F))), op.bufs ⊆ tailS := by
  intro op hop
  simp only [hostOps1, List.mem_cons, List.mem_nil_iff, or_false] at hop
  have h1 : main_v1 ∈ tailT := Finset.mem_insert_self _ _
  have hc : main_cst ∈ tailT := Finset.mem_insert_of_mem mem_rest_cst
  have h2 : main_v2 ∈ tailT := Finset.mem_insert_of_mem mem_rest_v2
  have hc0 : main_cst_0 ∈ tailT := Finset.mem_insert_of_mem mem_rest_cst0
  have h3 : main_v3 ∈ tailT := Finset.mem_insert_of_mem mem_rest_v3
  rcases hop with rfl | rfl | rfl | rfl
  · rw [StableHlo.nullary_bufs]; exact Finset.singleton_subset_iff.mpr (memS _ hc)
  · rw [StableHlo.binary_bufs]
    exact Finset.insert_subset (memS _ h1) (Finset.insert_subset (memS _ hc) (Finset.singleton_subset_iff.mpr (memS _ h2)))
  · rw [StableHlo.nullary_bufs]; exact Finset.singleton_subset_iff.mpr (memS _ hc0)
  · rw [StableHlo.binary_bufs]
    exact Finset.insert_subset (memS _ h2) (Finset.insert_subset (memS _ hc0) (Finset.singleton_subset_iff.mpr (memS _ h3)))

/-- No line after the region writes a reference outside the four scalars. -/
theorem tail_not_written (b : Ref sig .tc) (hb : b ≠ main_cst ∧ b ≠ main_v2 ∧ b ≠ main_cst_0 ∧ b ≠ main_v3) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- The line before the region writes only the cast predictions. -/
theorem head_not_written (b : Ref sig .tc) (hb : b ≠ main_v0) :
    ∀ op ∈ (List.flatten [hostOps0 (F := F)]), Proc.devRef .tc b ∉ op.writes := by
  intro op hop
  simp only [List.flatten_cons, List.flatten_nil, List.append_nil, List.mem_cons, List.mem_nil_iff, or_false] at hop
  rcases hop with rfl
  simp only [StableHlo.unary_writes, Finset.mem_singleton]
  exact StableHlo.devRef_ne_of_ne hb

/-- The buffers when the region is left, as a valuation: the region's result at what the write-backs made of it,
    every other buffer as the region found it. -/
def Wt (c : Dev nD) : Valuation τ sig (Elt F) := by
  classical exact Function.update (V₀ m c) (Proc.devRef .tc main_v1) ((dats m 0 c).arrAt 4 cfg0.N)

theorem Wt_v1 (c : Dev nD) : Wt m c (Proc.devRef .tc main_v1) = (dats m 0 c).arrAt 4 cfg0.N := by
  unfold Wt; exact Function.update_self _ _ _

theorem Wt_ne (c : Dev nD) (r : Ref sig .tc) (h : r ≠ main_v1) : Wt m c (Proc.devRef .tc r) = V₀ m c (Proc.devRef .tc r) := by
  unfold Wt; exact Function.update_of_ne (StableHlo.devRef_ne_of_ne h) _ _

/-- The buffers after the lines that follow the region. -/
def Vt (c : Dev nD) (b : Ref sig .tc) : Buf (Elt F) ((c : Thread nD τ).loc b) := StableHlo.after hostOps1 (Wt m c) (Proc.devRef .tc b)

/-- The bypassing buffers do not include the region's result: at them the exit valuation is the entry one. -/
theorem rest_Wt (c : Dev nD) :
    (Pipeline.unscopedRest spec0 c (fun b => Wt m c (Proc.devRef .tc b)) : sProp 𝕄) = Pipeline.unscopedRest spec0 c (V m c) := by
  unfold Pipeline.unscopedRest
  exact bigSep_congr fun b hb => by dsimp only; rw [Wt_ne m c b (fun e => v1_not_rest (e ▸ hb))]

/-- The small set held at a valuation: the region's result and the bypassing buffers. -/
theorem held_tailS (c : Dev nD) (Wv : Valuation τ sig (Elt F)) :
    (StableHlo.held (c.tc : Thread nD τ) tailS Wv : sProp 𝕄)
      = iprop((((c.tc : Thread nD τ).loc main_v1) ↦{fullShare} Wv (Proc.devRef .tc main_v1))
          ∗ Pipeline.unscopedRest spec0 c (fun b => Wv (Proc.devRef .tc b))) := by
  unfold StableHlo.held tailS tailT Pipeline.unscopedRest
  rw [bigSep_map, bigSep_insert v1_not_rest]
  rfl

/-- The end of the lines: nothing left to run. -/
theorem wp_chain_nil (c : Dev nD) (Q' : PUnit → sProp 𝕄) :
    Q' ⟨⟩ ⊢ wp frame (wpE (defs (F := F)) (Variants.lift Variants.none) (c.tc : Thread nD τ) none) Set.univ (Pipeline.chain []) Q' := by
  rw [Pipeline.chain_nil, wp_pure]; iintro H; imodintro; iexact H

-- (the host-line rule is stated for any thread and used at the TensorCore's: types are compared up to unfolding here)
set_option backward.isDefEq.respectTransparency.types false in
/-- The lines after the region: from the region's exit — the boundary, the windows' arrays at their final contents, the
    bypassing buffers as the region found them — they run within the result and the bypassing buffers and hand back
    the arrays as they were and the bypassing buffers at what the lines made of them. -/
theorem htail (c : Dev nD) (Q' : PUnit → sProp 𝕄) :
    iprop((iprop((dats m 0 c).arrays ((dats m 0 c).arrAt · cfg0.N) ∗ Pipeline.unscopedRest spec0 c (Vt m c)) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, arrays_eq', bigSep_W0, Pipeline.chain_cons]
  have hE : (StableHlo.held (c.tc : Thread nD τ) tailS (StableHlo.after hostOps1 (Wt m c)) : sProp 𝕄) ⊢ _ :=
    Entails.of_eq (held_tailS (F := F) c (StableHlo.after hostOps1 (Wt m c)))
  iintro ⟨Hk, Hb, ⟨A0, A1, A2, A3, A4⟩, HZ⟩
  iapply (StableHlo.wp_seq (Variants.lift Variants.none) none Set.univ c tailS (fun _ => Pipeline.chain []) hostOps1
    tail_sub (fun op h => (List.forall_iff_forall_mem.mp hostOps1_fresh) op h) (Wt m c)) $$ [Hb A4 HZ]
  · isplitl [Hb]; · iexact Hb
    rw [held_tailS, rest_Wt]
    isplitl [A4]
    · rw [Wt_v1]; iexact A4
    · iexact HZ
  iintro ⟨Hb, Hh⟩
  iapply (wp_chain_nil (F := F) c Q')
  iapply Hk
  ihave Hh' := hE $$ Hh
  icases Hh' with ⟨A4, HZ⟩
  isplitr [HZ]
  · isplitl [A0]; · iexact A0
    isplitl [A1]; · iexact A1
    isplitl [A2]; · iexact A2
    isplitl [A3]; · iexact A3
    rw [StableHlo.after_of_forall_not_mem hostOps1 (Wt m c) (tail_not_written main_v1 (by decide)), Wt_v1]
    iexact A4
  · iexact HZ

/-! ## The run -/

/-- The launch element: the pipeline library's, at the staging cells and the pipeline's transfers. -/
abbrev u₀ : UR sig nD τ := initOf (Pipeline.cells cfgs cellOf_inj) (Pipeline.launchToks cfgs cellOf_inj)

-- (the launch theorem's conclusion is matched with this statement up to unfolding of definitions in types)
set_option backward.isDefEq.respectTransparency.types false in
/-- At the compiled mesh, for any float values, from any memory with zero counters: every weakly fair execution of @main
    terminates, nothing faulting, and every final state has each window's array at what the write-backs made of it and
    every buffer that bypasses the region at what the lines after the region made of it. -/
theorem run_main : θ_run defs (onTc (τ := τ) (main (F := F))) (s₀ m ρ) (Pipeline.FramePost cfgs (dats m) 0 (Vt m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := u₀)
    (hu₀ := by
      iintro Hu; imodintro
      isplitl [Hu]; · iapply (show (ownU _ : sProp 𝕄) ⊢ BI.own (emb₁ u₀) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRest (Ix := Unit) (Name := ℕ) (U := UR sig nD τ) (Lvl := ℕ) spec0 c (Vt m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefs sig spec0, s.mem ((c.tc : Thread nD τ).loc b) = Vt m c b)
    (hY := fun c s' => by
      iintro ⟨-, HU, HSI⟩
      unfold Pipeline.unscopedRest
      imodintro
      iapply (pointsTo_read_all (Pipeline.restRefs sig spec0) (fun b => (c.tc : Thread nD τ).loc b) (Vt m c) s')
      isplitl [HU] <;> iassumption)
    (hQ := fun s h c => ⟨(h c).1, (h c).2.2⟩)

/-! ## The arguments end unchanged -/

theorem V_arg0 (c : Dev nD) : V m c main_arg0 = m ((c : Thread nD τ).loc main_arg0) :=
  StableHlo.after_of_forall_not_mem (b := Proc.devRef .tc main_arg0) _ _ (head_not_written main_arg0 (by decide))

theorem V_arg1 (c : Dev nD) : V m c main_arg1 = m ((c : Thread nD τ).loc main_arg1) :=
  StableHlo.after_of_forall_not_mem (b := Proc.devRef .tc main_arg1) _ _ (head_not_written main_arg1 (by decide))

/-- The predictions bypass the region and no line after it writes them. -/
theorem Vt_arg0 (c : Dev nD) : Vt m c main_arg0 = m ((c : Thread nD τ).loc main_arg0) := by
  unfold Vt
  rw [StableHlo.after_of_forall_not_mem hostOps1 (Wt m c) (tail_not_written main_arg0 (by decide)), Wt_ne m c main_arg0 (by decide)]
  exact V_arg0 m c

/-- THE FRAME, at any float values: the program runs to the end, nothing faults, and both argument arrays end as
    launched — the predictions are no window's array and no host line writes them; the labels are an input
    window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 mem_rest_arg0).trans (Vt_arg0 m c),
    ((h c).1 2).trans (((dats m 0 c).arrAt_in 2 rfl _).trans ((A_eq m c 2).trans (V_arg1 m c)))⟩) (run_main m ρ)

end Cert.Kernel.Acc

end
-- ==== Proof.KI.Conds.lean ====
/-
  The one branch of the kernel body: it tests whether the second grid coordinate (the index of the
  column tile, the axis the row sums are accumulated over) is zero. Over the 4 x 8 grid, read in
  row-major order, that is exactly the points whose position is a multiple of 8: the first column
  tile of each of the four row tiles, where the accumulator is reset.
-/
import proofs.«149102_j6339371729129_2_alg».proof.Proof.Gen.KernelIdeal.Launch
import proofs.«149102_j6339371729129_2_alg».proof.Proof.Gen.KernelIdeal.Skeleton
import proofs.«149102_j6339371729129_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as a function of the grid coordinates: "the column-tile index is zero". -/
abbrev resetCond (i : grid0.Coords) : Prop :=
  (Scalar.cmpi .ne (Scalar.extui (Scalar.cmpi .eq (BitVec.ofNat 32 (i 1).val) 0#32)) 0#32) = 1#1

/-- It holds exactly at the points whose position is a multiple of 8 (the row-major position of
    (qi, ki) is 8 qi + ki). -/
theorem resetCond_iff : ∀ t : Fin cfg0.N, resetCond (grid0.coords t) ↔ t.val % 8 = 0 :=
  (by decide +kernel : ∀ t : Fin grid0.N, resetCond (grid0.coords t) ↔ t.val % 8 = 0)

/-- One staging buffer of the output window, through which its contents are stated. -/
abbrev outView : View sig .tc .vmem S8x512 .f32 := (Memref.whole cc0_stg4_0 : Memref sig .tc .vmem S8x512 .f32).view

end Cert.KernelIdeal.Acc

end
-- ==== Proof.KI.RunReset.lean ====
/-
  The kernel body at a point where the accumulator is reset (column-tile index 0), run symbolically on
  whole staging buffers: the four input buffers hold the row tile x0, the column tile x1 and their
  segment labels x2, x3; the output buffer holds anything. The body stores zeros, then stores
  "what it just read back + the row sums of this tile's losses". The pieces written are found by the run.
-/
import proofs.«149102_j6339371729129_2_alg».proof.Proof.KI.Conds

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's two stores leave in the output's staging buffer when the accumulator is reset,
    with the proof that the body runs from the inputs at their contents and the output at anything to the
    inputs unchanged and the output with those pieces written. -/
noncomputable def bodyReset (c : Dev nD) (i : grid0.Coords)
    (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) :
    { L : List (View.Piece (Elt F) S8x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__contrastive_kernel i arg2 harg2 arg3 harg3 arg4 harg4 arg5 harg5 arg6 harg6) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Acc

end
-- ==== Proof.KI.RunCarry.lean ====
/-
  The kernel body at a point where the accumulator is carried (column-tile index not 0), run symbolically on
  whole staging buffers: the inputs as before, the output buffer at the running row sums xo the point
  before left. The body stores "xo + the row sums of this tile's losses". The piece written is found by the run.
-/
import proofs.«149102_j6339371729129_2_alg».proof.Proof.KI.RunReset

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body's one store leaves in the output's staging buffer when the accumulator is carried,
    with the proof that the body runs from the inputs at their contents and the output at the running sums
    to the inputs unchanged and the output with that piece written. -/
noncomputable def bodyCarry (c : Dev nD) (i : grid0.Coords)
    (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32)
    (xo : Vec F S8x512 .f32) :
    { L : List (View.Piece (Elt F) S8x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__contrastive_kernel i arg2 harg2 arg3 harg3 arg4 harg4 arg5 harg5 arg6 harg6) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Acc

end
-- ==== Proof.KI.AccData.lean ====
/-
  The proof data of the one pipeline, and the body's obligation at every grid point.

  The grid is 4 x 8: point 8 qi + ki works on row tile qi (512 rows of each of the 8 batches) against
  column tile ki (256 rows). The output window's block depends on qi only, so its staging buffer is an
  accumulator over the eight points of a row tile: reset at ki = 0, added to at every point, written back
  after ki = 7. What it holds after each point is defined by recursion on the position (`accAt`).

  The two prediction windows read ONE array (the cast predictions) and the two label windows read ONE array
  (the labels): each of those arrays is held half by one window and half by the other.
-/
import proofs.«149102_j6339371729129_2_alg».proof.Proof.KI.RunCarry

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: as launched, after the one host line before it (the change of
    format of the predictions). -/
abbrev V₀ (c : Dev nD) : Valuation τ sig (Elt F) := StableHlo.after (List.flatten [hostOps0]) (fun b => m (c, b))
abbrev V (c : Dev nD) (b : Ref sig .tc) : Buf (Elt F) ((c : Thread nD τ).loc b) := V₀ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the
    block index has not moved. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the
    block index has not moved. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the
    block index has not moved. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, as the pipeline passes them -/

abbrev ms0 (t : Fin cfg0.N) : Memref sig .tc .vmem S8x512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x512 .f32 := win0_4.stage (cfg0.slots t 4)
abbrev hs4 (t : Fin cfg0.N) : (ms4 t).IsWhole := hstage0_4 ((cfg0.slots t 4).cast nbuf0_4)

/-! ## What the output's buffer holds after the body, per case -/

/-- At a reset point the body's two stores (zeros, then the sums) each fill the whole block, so they cover it. -/
theorem coverReset (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) (y : S8x512.Idx) :
    ∃ pc ∈ (bodyReset c i arg2 harg2 arg3 harg3 arg4 harg4 arg5 harg5 arg6 harg6 hc0 x0 x1 x2 x3).1, y ∈ pc.1.set :=
  View.cover_of_tiledL (bodyReset c i arg2 harg2 arg3 harg3 arg4 harg4 arg5 harg5 arg6 harg6 hc0 x0 x1 x2 x3).1 S8x512.size (by sl_kernel_rfl) y

/-- What a reset point leaves in the output's staging buffer: its pieces read back. -/
def outReset (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) : Vec F S8x512 .f32 :=
  outView.read (Elt F) (outView.writes (Elt F) outView.junk (bodyReset c i arg2 harg2 arg3 harg3 arg4 harg4 arg5 harg5 arg6 harg6 hc0 x0 x1 x2 x3).1)

/-- At a carrying point the body's one store fills the whole block. -/
theorem coverCarry (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32) (xo : Vec F S8x512 .f32) (y : S8x512.Idx) :
    ∃ pc ∈ (bodyCarry c i arg2 harg2 arg3 harg3 arg4 harg4 arg5 harg5 arg6 harg6 hc0 x0 x1 x2 x3 xo).1, y ∈ pc.1.set :=
  View.cover_of_tiledL (bodyCarry c i arg2 harg2 arg3 harg3 arg4 harg4 arg5 harg5 arg6 harg6 hc0 x0 x1 x2 x3 xo).1 S8x512.size (by sl_kernel_rfl) y

/-- What a carrying point leaves in the output's staging buffer, from what the point before left (`xo`). -/
def outCarry (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32) (xo : Vec F S8x512 .f32) : Vec F S8x512 .f32 :=
  outView.read (Elt F) (outView.writes (Elt F) outView.junk (bodyCarry c i arg2 harg2 arg3 harg3 arg4 harg4 arg5 harg5 arg6 harg6 hc0 x0 x1 x2 x3 xo).1)

/-! ## The accumulation -/

/-- What the output's staging buffer holds after the body at position `n`: at a multiple of 8 the reset case on the
    point's blocks, elsewhere the carrying case over what position `n - 1` left (the buffer is not written back
    between). -/
def accAt (c : Dev nD) : (n : ℕ) → n < cfg0.N → Vec F S8x512 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((resetCond_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outCarry c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((resetCond_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_reset (c : Dev nD) (t : Fin cfg0.N) (h0 : t.val % 8 = 0) :
    accAt m c t.val t.isLt = outReset c (grid0.coords t) (ms0 t) (hs0 t) (ms1 t) (hs1 t) (ms2 t) (hs2 t) (ms3 t) (hs3 t) (ms4 t) (hs4 t) ((resetCond_iff t).mpr h0) (iblk m c 0 t) (iblk m c 1 t) (iblk m c 2 t) (iblk m c 3 t) := by
  obtain ⟨n, hn⟩ := t
  cases n with
  | zero => exact rfl
  | succ n => exact (dif_pos h0).trans rfl

theorem accAt_carry (c : Dev nD) (t : Fin cfg0.N) (h0 : ¬t.val % 8 = 0) :
    accAt m c t.val t.isLt = outCarry c (grid0.coords t) (ms0 t) (hs0 t) (ms1 t) (hs1 t) (ms2 t) (hs2 t) (ms3 t) (hs3 t) (ms4 t) (hs4 t) (fun h => h0 ((resetCond_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its
    block and the output's at the accumulation; the invariant the scoped rest and the generator register; nothing
    owed. The cast predictions are held half by window 0 and half by window 1, the labels half by window 2 and
    half by window 3. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (accAt m c t.val t.isLt) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-- At a carrying point the output's staging buffer holds what the body left at the point before: the point is not
    the first and the buffer was not written back between (write-backs follow the positions ≡ 7 mod 8). -/
theorem before4_carry (c : Dev nD) (t : Fin cfg0.N) (h0 : ¬t.val % 8 = 0) (d) :
    (dats m 0 c).before 4 t d = (accAt m c (t.val - 1) (Nat.lt_of_le_of_lt (Nat.sub_le _ _) t.isLt)) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the position says which case the point is in; at a
    carrying point the output's buffer holds what the point before left; so that case's run applies. The invariant
    passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 32 := lt_of_lt_of_eq t.isLt (show cfg0.N = 32 from N_0)
  by_cases h0 : t.val % 8 = 0
  · rw [accAt_reset m c t h0]
    unfold outReset
    iintro ⟨HΦ, Ho, ⟨%d0, H0⟩, ⟨%d1, H1⟩, ⟨%d2, H2⟩, ⟨%d3, H3⟩, ⟨%d4, H4⟩⟩
    iapply ((bodyReset c (grid0.coords t) _ _ _ _ _ _ _ _ _ _ ((resetCond_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset c _ _ _ _ _ _ _ _ _ _ _ _ _ _ _ _)
  · rw [accAt_carry m c t h0]
    simp only [before4_carry m c t h0]
    unfold outCarry
    iintro ⟨HΦ, Ho, ⟨%d0, H0⟩, ⟨%d1, H1⟩, ⟨%d2, H2⟩, ⟨%d3, H3⟩, ⟨%d4, H4⟩⟩
    iapply ((bodyCarry c (grid0.coords t) _ _ _ _ _ _ _ _ _ _ (fun h => h0 ((resetCond_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCarry c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Acc

end
-- ==== Proof.KI.Pieces.lean ====
/-
  What the two cases of the body leave in the output's staging buffer, as VALUES: the one pure term
  "old contents + row sums of this tile's losses" (the body's last store's payload) of the four input blocks —
  over the zero block at a reset point, over what the point before left at a carrying point.
-/
import proofs.«149102_j6339371729129_2_alg».proof.Proof.KI.AccData
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The body's arithmetic as one term of the four input blocks and the accumulator's old contents. -/
def tilePay (x0 : Vec F S8x512x512 .bf16) (x1 : Vec F S8x256x512 .bf16) (x2 : Vec F S8x512 .i32) (x3 : Vec F S8x256 .i32)
    (xo : Vec F S8x512 .f32) : Vec F S8x512 .f32 :=
  k0_pay1 (k0_pay3 x0 x1) (k0_pay4 x0 x1) (k0_pay5 (F := F) x2) (k0_pay6 (F := F) x3) xo

/-- A carrying point leaves the payload over what it found. -/
theorem outCarry_eq (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : ¬resetCond i)
    (x0 : Vec F S8x512x512 .bf16) (x1 : Vec F S8x256x512 .bf16) (x2 : Vec F S8x512 .i32) (x3 : Vec F S8x256 .i32) (xo : Vec F S8x512 .f32) :
    outCarry c i arg2 harg2 arg3 harg3 arg4 harg4 arg5 harg5 arg6 harg6 hc0 x0 x1 x2 x3 xo = tilePay x0 x1 x2 x3 xo := by
  unfold outCarry
  rw [View.read_writes_eq_canon _ _ _ (coverCarry c i arg2 harg2 arg3 harg3 arg4 harg4 arg5 harg5 arg6 harg6 hc0 x0 x1 x2 x3 xo)]
  unfold bodyCarry
  dsimp only
  sl_unfold_words
  rw [View.canon_unit_zero hz2]
  simp only [View.readAt_eq_ld, harg2.read_unread, harg3.read_unread, harg4.read_unread, harg5.read_unread, harg6.read_unread,
    View.ld_unit_zero (S := S8x512x512) hz3, View.ld_unit_zero (S := S8x256x512) hz3, View.ld_unit_zero (S := S8x512) hz2,
    View.ld_unit_zero (S := S8x256) hz2]
  rfl

/-- A reset point stores the zero block, reads it back, and leaves the payload over it. -/
theorem outReset_eq (c : Dev nD) (i : grid0.Coords) (arg2 : Memref sig .tc .vmem S8x512x512 .bf16) (harg2 : arg2.IsWhole) (arg3 : Memref sig .tc .vmem S8x256x512 .bf16) (harg3 : arg3.IsWhole)
    (arg4 : Memref sig .tc .vmem S8x512 .i32) (harg4 : arg4.IsWhole) (arg5 : Memref sig .tc .vmem S8x256 .i32) (harg5 : arg5.IsWhole)
    (arg6 : Memref sig .tc .vmem S8x512 .f32) (harg6 : arg6.IsWhole) (hc0 : resetCond i)
    (x0 : Vec F S8x512x512 .bf16) (x1 : Vec F S8x256x512 .bf16) (x2 : Vec F S8x512 .i32) (x3 : Vec F S8x256 .i32) :
    outReset c i arg2 harg2 arg3 harg3 arg4 harg4 arg5 harg5 arg6 harg6 hc0 x0 x1 x2 x3 = tilePay x0 x1 x2 x3 (k0_pay2 (F := F)) := by
  unfold outReset
  rw [View.read_writes_eq_canon _ _ _ (coverReset c i arg2 harg2 arg3 harg3 arg4 harg4 arg5 harg5 arg6 harg6 hc0 x0 x1 x2 x3)]
  unfold bodyReset
  dsimp only
  sl_unfold_words
  rw [View.canon_cons_unit_zero (S := S8x512) hz2, View.readCov_unit_zero (S := S8x512) _ hz2]
  simp only [View.readAt_eq_ld, harg2.read_unread, harg3.read_unread, harg4.read_unread, harg5.read_unread,
    View.ld_unit_zero (S := S8x512x512) hz3, View.ld_unit_zero (S := S8x256x512) hz3, View.ld_unit_zero (S := S8x512) hz2,
    View.ld_unit_zero (S := S8x256) hz2]
  rfl

end Cert.KernelIdeal.Acc

end
-- ==== Proof.LibRank3Sums.lean ====
/-
  Two general facts about rank-3 arrays at the exact extended reals.

  * An add-reduction over the LAST axis of an [a, b, c] array, from the zero word, read at (n, l), is the plain sum
    over d of the array at (n, l, d).
  * A sum over the index set of an [n0, n1, n2] array is the triple sum over its three coordinates.
-/
import Idealize.ShloMosaic.Lib.ValueIdx
import Idealize.ShloMosaic.PureOps.Ideal.Laws

noncomputable section

namespace Cert.LibRank3Sums

open Idealize.ShloMosaic Idealize.ShloMosaic.ValueIdx

/-- At the exact extended reals an add-reduction over the last axis of a rank-3 array, from the zero word, is the plain
    sum over that axis: at (n, l) it is the sum over d of the array at (n, l, d). -/
theorem lane3 {a b c : Nat} (v : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (n : Fin a) (l : Fin b) :
    multiReduction .add [2] ⟨2, ![a, b]⟩ v 0x00000000#32 h hφ hacc (ix2 n l) = ∑ d : Fin c, v (ix3 n l d) :=
  (Ideal.multiReduction_add_single v 0x00000000#32 h hφ hacc (ix2 n l)).trans
    (Finset.sum_congr rfl fun d _ => congrArg v (funext fun ax => Fin.ext (by
      match ax with
      | ⟨0, _⟩ => rfl
      | ⟨1, _⟩ => rfl
      | ⟨2, _⟩ => rfl)))

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibRank3Sums

end
-- ==== Proof.KI.TileTerms.lean ====
/-
  The body's arithmetic at the exact extended reals, tile by tile.

  Write x for the predictions (8 batches of 2048 rows of 512 numbers) and s for the labels. For a pair (l, m) of rows
  of batch n the loss is
      0.1 · y · d2 + 0.3 · (1 − y) · h · h,   d2 = max(|x_l|² + |x_m|² − 2 ⟨x_l, x_m⟩, 0),
      h = max(2 − dist, 0),  dist = sqrt(d2) where d2 > 0 and 0 elsewhere,  y = 1 if s_l = s_m else 0,
  with the two constants the binary values both programs carry. The reference computes it for all 2048 x 2048 pairs of
  each batch at once; the kernel, at grid point t = 8 qi + ki, for the 512 rows of row tile qi against the 256 rows of
  column tile ki, and adds the sums over those 256 columns to its accumulator.

  This module says that the kernel's loss tile IS the corresponding tile of the reference's loss array: same squared
  norms (a lane sum against the host's sum over the last axis), same inner products (the matrix unit's batched product
  into zero against the host's batched dot), same label test (the 0/1 word read signed or unsigned), and the same
  pointwise formula over them.
-/
import proofs.«149102_j6339371729129_2_alg».proof.Proof.KI.Pieces
import proofs.«149102_j6339371729129_2_alg».proof.Proof.LibRank3Sums
import proofs.«149102_j6339371729129_2_alg».proof.Proof.Gen.ReferenceIdeal.Read
import Idealize.ShloMosaic.Lib.ValueIdx
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.ReferenceIdeal.Read
open Cert.LibRank3Sums

/-! ## Layout operations of these shapes, read at an index -/

section Layout
variable {α : Type}

/-- A [8,512] array seen as [8,512,1]. -/
theorem cast_q (x : S8x512.Idx → α) (h : S8x512.ShapeCasts S8x512x1) (n : Fin 8) (l : Fin 512) (z : Fin 1) :
    shapeCast S8x512x1 x h (ix3 n l z) = x (ix2 n l) :=
  shapeCast_apply x h _ _ (by
    rw [Shape.rowMajor_val_two, Shape.rowMajor_val_three]
    show n.val * 512 + l.val = (n.val * 512 + l.val) * 1 + z.val
    have := z.isLt; omega)

/-- A [8,256] array seen as [8,1,256]. -/
theorem cast_k (x : S8x256.Idx → α) (h : S8x256.ShapeCasts S8x1x256) (n : Fin 8) (z : Fin 1) (mm : Fin 256) :
    shapeCast S8x1x256 x h (ix3 n z mm) = x (ix2 n mm) :=
  shapeCast_apply x h _ _ (by
    rw [Shape.rowMajor_val_two, Shape.rowMajor_val_three]
    show n.val * 256 + mm.val = (n.val * 1 + z.val) * 256 + mm.val
    have := z.isLt; omega)

/-- A [8,512,1] array repeated along its last axis. -/
theorem bcast_q (x : S8x512x1.Idx → α) (h : S8x512x1.Broadcasts S8x512x256) (n : Fin 8) (l : Fin 512) (mm : Fin 256) :
    broadcastTo S8x512x256 x h (ix3 n l mm) = x (ix3 n l (0 : Fin 1)) :=
  broadcastTo_apply x h _ _ (fun a => match a with
    | ⟨0, _⟩ => by show n.val = if (8 : Nat) = 1 then 0 else n.val; rw [if_neg (by decide)]
    | ⟨1, _⟩ => by show l.val = if (512 : Nat) = 1 then 0 else l.val; rw [if_neg (by decide)]
    | ⟨2, _⟩ => by show (0 : Nat) = if (1 : Nat) = 1 then 0 else mm.val; rw [if_pos rfl])

/-- A [8,1,256] array repeated along its middle axis. -/
theorem bcast_k (x : S8x1x256.Idx → α) (h : S8x1x256.Broadcasts S8x512x256) (n : Fin 8) (l : Fin 512) (mm : Fin 256) :
    broadcastTo S8x512x256 x h (ix3 n l mm) = x (ix3 n (0 : Fin 1) mm) :=
  broadcastTo_apply x h _ _ (fun a => match a with
    | ⟨0, _⟩ => by show n.val = if (8 : Nat) = 1 then 0 else n.val; rw [if_neg (by decide)]
    | ⟨1, _⟩ => by show (0 : Nat) = if (1 : Nat) = 1 then 0 else l.val; rw [if_pos rfl]
    | ⟨2, _⟩ => by show mm.val = if (256 : Nat) = 1 then 0 else mm.val; rw [if_neg (by decide)])

end Layout

/-! ## The payloads restated over named pieces -/

/-- The squared norms of the row tile's rows, spread over the tile. -/
def sqqV (x0 : Vec Ideal S8x512x512 .bf16) : FVec Ideal S8x512x256 .f32 :=
  broadcastTo S8x512x256 (shapeCast S8x512x1 (multiReduction .add [2] S8x512
    (mulf (extf .f32 (shapeCast S8x512x512 x0 shapeCasts_S8x512x512_S8x512x512) bitsLt_bf16_f32)
      (extf .f32 (shapeCast S8x512x512 x0 shapeCasts_S8x512x512_S8x512x512) bitsLt_bf16_f32))
    0x00000000#32 reduces_S8x512x512_S8x512 (.inl rfl) rfl) shapeCasts_S8x512_S8x512x1) broadcasts_S8x512x1_S8x512x256

/-- The squared norms of the column tile's rows, spread over the tile. -/
def sqkV (x1 : Vec Ideal S8x256x512 .bf16) : FVec Ideal S8x512x256 .f32 :=
  broadcastTo S8x512x256 (shapeCast S8x1x256 (multiReduction .add [2] S8x256
    (mulf (extf .f32 (shapeCast S8x256x512 x1 shapeCasts_S8x256x512_S8x256x512) bitsLt_bf16_f32)
      (extf .f32 (shapeCast S8x256x512 x1 shapeCasts_S8x256x512_S8x256x512) bitsLt_bf16_f32))
    0x00000000#32 reduces_S8x256x512_S8x256 (.inl rfl) rfl) shapeCasts_S8x256_S8x1x256) broadcasts_S8x1x256_S8x512x256

/-- The inner products of the row tile's rows with the column tile's rows. -/
def innV (x0 : Vec Ideal S8x512x512 .bf16) (x1 : Vec Ideal S8x256x512 .bf16) : FVec Ideal S8x512x256 .f32 :=
  matmul dot_S8x512x512_S8x256x512_S8x512x256_2_2_1_1_0_0 none (shapeCast S8x512x512 x0 shapeCasts_S8x512x512_S8x512x512 : FVec Ideal S8x512x512 .bf16)
    (shapeCast S8x256x512 x1 shapeCasts_S8x256x512_S8x256x512 : FVec Ideal S8x256x512 .bf16) (constant S8x512x256 .f32 0x00000000#32)

/-- The clamped squared distance from the two squared norms and the inner product. -/
def d2V (a b c : FVec Ideal S8x512x256 .f32) : FVec Ideal S8x512x256 .f32 :=
  maximumf (subf (addf a b) (mulf (broadcast S8x512x256 (Scalar.ofBits (F := Ideal) .f32 0x40000000#32)) c))
    (broadcast S8x512x256 (Scalar.ofBits (F := Ideal) .f32 0x00000000#32))

theorem pay3_eq (x0 : Vec Ideal S8x512x512 .bf16) (x1 : Vec Ideal S8x256x512 .bf16) :
    k0_pay3 (F := Ideal) x0 x1 = d2V (sqqV x0) (sqkV x1) (innV x0 x1) := rfl

/-- The distance: the square root where the squared distance is positive, zero elsewhere. -/
def distV (d2 : FVec Ideal S8x512x256 .f32) : FVec Ideal S8x512x256 .f32 :=
  select (cmpf .ogt d2 (broadcast S8x512x256 (Scalar.ofBits (F := Ideal) .f32 0x00000000#32)))
    (sqrt (select (cmpf .ogt d2 (broadcast S8x512x256 (Scalar.ofBits (F := Ideal) .f32 0x00000000#32))) d2
      (broadcast S8x512x256 (Scalar.ofBits (F := Ideal) .f32 0x3F800000#32))))
    (broadcast S8x512x256 (Scalar.ofBits (F := Ideal) .f32 0x00000000#32))

theorem pay4_eq (x0 : Vec Ideal S8x512x512 .bf16) (x1 : Vec Ideal S8x256x512 .bf16) :
    k0_pay4 (F := Ideal) x0 x1 = distV (k0_pay3 (F := Ideal) x0 x1) := rfl

/-- The label test as a float: 1 where the row's label is the column's, 0 elsewhere. -/
def yV (x2 : Vec Ideal S8x512 .i32) (x3 : Vec Ideal S8x256 .i32) : FVec Ideal S8x512x256 .f32 :=
  sitofp .f32 (extui 32 (cmpi .eq (k0_pay5 (F := Ideal) x2) (k0_pay6 (F := Ideal) x3)) natLt_1_32)

/-- The loss from the squared distance, the distance and the label test. -/
def lossV (d2 dist y : FVec Ideal S8x512x256 .f32) : FVec Ideal S8x512x256 .f32 :=
  addf (mulf (mulf (broadcast S8x512x256 (Scalar.ofBits (F := Ideal) .f32 0x3DCCCCCD#32)) y) d2)
    (mulf (mulf (mulf (broadcast S8x512x256 (Scalar.ofBits (F := Ideal) .f32 0x3E99999A#32))
        (subf (broadcast S8x512x256 (Scalar.ofBits (F := Ideal) .f32 0x3F800000#32)) y))
      (maximumf (subf (broadcast S8x512x256 (Scalar.ofBits (F := Ideal) .f32 0x40000000#32)) dist)
        (broadcast S8x512x256 (Scalar.ofBits (F := Ideal) .f32 0x00000000#32))))
      (maximumf (subf (broadcast S8x512x256 (Scalar.ofBits (F := Ideal) .f32 0x40000000#32)) dist)
        (broadcast S8x512x256 (Scalar.ofBits (F := Ideal) .f32 0x00000000#32))))

/-- The body's last store: the accumulator's old contents plus the tile's losses summed over its columns. -/
theorem tilePay_eq (x0 : Vec Ideal S8x512x512 .bf16) (x1 : Vec Ideal S8x256x512 .bf16) (x2 : Vec Ideal S8x512 .i32)
    (x3 : Vec Ideal S8x256 .i32) (xo : Vec Ideal S8x512 .f32) :
    tilePay (F := Ideal) x0 x1 x2 x3 xo
      = addf (shapeCast S8x512 xo shapeCasts_S8x512_S8x512)
          (multiReduction .add [2] S8x512 (lossV (k0_pay3 (F := Ideal) x0 x1) (k0_pay4 (F := Ideal) x0 x1) (yV x2 x3))
            0x00000000#32 reduces_S8x512x256_S8x512 (.inl rfl) rfl) := rfl

end Cert.KernelIdeal.Acc

end
-- ==== Proof.KI.TileLeaves.lean ====
/-
  The kernel's loss tile at grid point t is the tile of the reference's loss array at rows 512 (t / 8) + l and
  columns 256 (t % 8) + m: leaf by leaf (squared norms, inner products, label test), then the pointwise formula.
-/
import proofs.«149102_j6339371729129_2_alg».proof.Proof.KI.TileTerms

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.ReferenceIdeal.Read
open Cert.LibRank3Sums

/-- The shape of the reference's pair arrays: batch, row, column. -/
abbrev Pairs : Shape := ⟨3, ![8, 2048, 2048]⟩

/-- The array row that row l of the row tile of point t is. -/
def rowOf (t : Fin 32) (l : Fin 512) : Fin 2048 := ⟨512 * (t.val / 8) + l.val, by have := t.isLt; have := l.isLt; omega⟩
/-- The array row that row m of the column tile of point t is. -/
def colOf (t : Fin 32) (mm : Fin 256) : Fin 2048 := ⟨256 * (t.val % 8) + mm.val, by have := mm.isLt; omega⟩

/-- The tile of a pair array that point t works on. -/
def tile3 {α : Type} (Y : Pairs.Idx → α) (t : Fin 32) : S8x512x256.Idx → α :=
  fun j => Y (ix3 (j 0) (rowOf t (j 1)) (colOf t (j 2)))

theorem tile3_ix {α : Type} (Y : Pairs.Idx → α) (t : Fin 32) (n : Fin 8) (l : Fin 512) (mm : Fin 256) :
    tile3 Y t (ix3 n l mm) = Y (ix3 n (rowOf t l) (colOf t mm)) := rfl

/-! ## The reference's squared norm of a row -/

theorem sq_ref (X0 : FVec Ideal S8x2048x512 .f32) (n : Fin 8) (L : Fin 2048) :
    val_main_v7 (F := Ideal) X0 (ix2 n L) = ∑ d : Fin 512, X0 (ix3 n L d) * X0 (ix3 n L d) := by
  rw [val_main_v7_apply]
  show Ideal.ofBits .f32 0x00000000#32 + _ = _
  rw [Ideal.ofBits_zero_f32, zero_add]
  refine Finset.sum_congr rfl fun d _ => ?_
  have e : idx_main_v7 (ix2 n L) d = ix3 n L d := funext fun a => Fin.ext (by
    match a with
    | ⟨0, _⟩ => rfl
    | ⟨1, _⟩ => rfl
    | ⟨2, _⟩ => rfl)
  rw [e]; rfl

/-! ## The leaves -/

theorem sqq_tile (X0 : FVec Ideal S8x2048x512 .f32) (t : Fin 32) (x0 : Vec Ideal S8x512x512 .bf16)
    (H0 : ∀ (n : Fin 8) (l : Fin 512) (d : Fin 512), x0 (ix3 n l d) = X0 (ix3 n (rowOf t l) d)) :
    sqqV x0 = tile3 (val_main_v11 (F := Ideal) X0) t := by
  funext j
  obtain ⟨n, l, mm, rfl⟩ : ∃ (n : Fin 8) (l : Fin 512) (mm : Fin 256), j = ix3 n l mm := ⟨j 0, j 1, j 2, eq_ix3 j⟩
  rw [tile3_ix, val_main_v11_apply, val_main_v9_apply]
  have e : idx_main_v9 (idx_main_v11 (ix3 n (rowOf t l) (colOf t mm))) = ix2 n (rowOf t l) := funext fun a => Fin.ext (by
    match a with
    | ⟨0, _⟩ => rfl
    | ⟨1, _⟩ => rfl)
  rw [e, sq_ref]
  unfold sqqV
  rw [bcast_q, cast_q]
  refine (lane3 _ _ _ _ n l).trans (Finset.sum_congr rfl fun d _ => ?_)
  show shapeCast S8x512x512 x0 shapeCasts_S8x512x512_S8x512x512 (ix3 n l d) * shapeCast S8x512x512 x0 shapeCasts_S8x512x512_S8x512x512 (ix3 n l d) = _
  rw [shapeCast_self, H0]

theorem sqk_tile (X0 : FVec Ideal S8x2048x512 .f32) (t : Fin 32) (x1 : Vec Ideal S8x256x512 .bf16)
    (H1 : ∀ (n : Fin 8) (mm : Fin 256) (d : Fin 512), x1 (ix3 n mm d) = X0 (ix3 n (colOf t mm) d)) :
    sqkV x1 = tile3 (val_main_v12 (F := Ideal) X0) t := by
  funext j
  obtain ⟨n, l, mm, rfl⟩ : ∃ (n : Fin 8) (l : Fin 512) (mm : Fin 256), j = ix3 n l mm := ⟨j 0, j 1, j 2, eq_ix3 j⟩
  rw [tile3_ix, val_main_v12_apply, val_main_v10_apply]
  have e : idx_main_v10 (idx_main_v12 (ix3 n (rowOf t l) (colOf t mm))) = ix2 n (colOf t mm) := funext fun a => Fin.ext (by
    match a with
    | ⟨0, _⟩ => rfl
    | ⟨1, _⟩ => rfl)
  rw [e, sq_ref]
  unfold sqkV
  rw [bcast_k, cast_k]
  refine (lane3 _ _ _ _ n mm).trans (Finset.sum_congr rfl fun d _ => ?_)
  show shapeCast S8x256x512 x1 shapeCasts_S8x256x512_S8x256x512 (ix3 n mm d) * shapeCast S8x256x512 x1 shapeCasts_S8x256x512_S8x256x512 (ix3 n mm d) = _
  rw [shapeCast_self, H1]

/-! ### The matrix unit's batched product: its operand indices at an output index -/

theorem klhs0 (i : S8x512x256.Idx) (q : dot_S8x512x512_S8x256x512_S8x512x256_2_2_1_1_0_0.contr.Idx) : (dot_S8x512x512_S8x256x512_S8x512x256_2_2_1_1_0_0.lhsIdx i q 0).val = (i 0).val := by
  unfold DotDims.lhsIdx
  rw [dif_pos (show (0 : Fin S8x512x512.rank) ∈ dot_S8x512x512_S8x256x512_S8x512x256_2_2_1_1_0_0.lhsBatch by decide)]
  rfl
theorem klhs1 (i : S8x512x256.Idx) (q : dot_S8x512x512_S8x256x512_S8x512x256_2_2_1_1_0_0.contr.Idx) : (dot_S8x512x512_S8x256x512_S8x512x256_2_2_1_1_0_0.lhsIdx i q 1).val = (i 1).val := by
  unfold DotDims.lhsIdx
  rw [dif_neg (show ¬(1 : Fin S8x512x512.rank) ∈ dot_S8x512x512_S8x256x512_S8x512x256_2_2_1_1_0_0.lhsBatch by decide), dif_pos (show (1 : Fin S8x512x512.rank) ∈ dot_S8x512x512_S8x256x512_S8x512x256_2_2_1_1_0_0.lhsNonContracting by decide)]
  rfl
theorem klhs2 (i : S8x512x256.Idx) (q : dot_S8x512x512_S8x256x512_S8x512x256_2_2_1_1_0_0.contr.Idx) : (dot_S8x512x512_S8x256x512_S8x512x256_2_2_1_1_0_0.lhsIdx i q 2).val = (q ⟨0, by decide⟩).val :=
  dot_S8x512x512_S8x256x512_S8x512x256_2_2_1_1_0_0.lhsIdx_val_of_single rfl i q
theorem krhs0 (i : S8x512x256.Idx) (q : dot_S8x512x512_S8x256x512_S8x512x256_2_2_1_1_0_0.contr.Idx) : (dot_S8x512x512_S8x256x512_S8x512x256_2_2_1_1_0_0.rhsIdx i q 0).val = (i 0).val := by
  unfold DotDims.rhsIdx
  rw [dif_pos (show (0 : Fin S8x256x512.rank) ∈ dot_S8x512x512_S8x256x512_S8x512x256_2_2_1_1_0_0.rhsBatch by decide)]
  rfl
theorem krhs1 (i : S8x512x256.Idx) (q : dot_S8x512x512_S8x256x512_S8x512x256_2_2_1_1_0_0.contr.Idx) : (dot_S8x512x512_S8x256x512_S8x512x256_2_2_1_1_0_0.rhsIdx i q 1).val = (i 2).val := by
  unfold DotDims.rhsIdx
  rw [dif_neg (show ¬(1 : Fin S8x256x512.rank) ∈ dot_S8x512x512_S8x256x512_S8x512x256_2_2_1_1_0_0.rhsBatch by decide), dif_pos (show (1 : Fin S8x256x512.rank) ∈ dot_S8x512x512_S8x256x512_S8x512x256_2_2_1_1_0_0.rhsNonContracting by decide)]
  rfl
theorem krhs2 (i : S8x512x256.Idx) (q : dot_S8x512x512_S8x256x512_S8x512x256_2_2_1_1_0_0.contr.Idx) : (dot_S8x512x512_S8x256x512_S8x512x256_2_2_1_1_0_0.rhsIdx i q 2).val = (q ⟨0, by decide⟩).val :=
  dot_S8x512x512_S8x256x512_S8x512x256_2_2_1_1_0_0.rhsIdx_val_of_single rfl i q

theorem inn_tile (X0 : FVec Ideal S8x2048x512 .f32) (t : Fin 32) (x0 : Vec Ideal S8x512x512 .bf16) (x1 : Vec Ideal S8x256x512 .bf16)
    (H0 : ∀ (n : Fin 8) (l : Fin 512) (d : Fin 512), x0 (ix3 n l d) = X0 (ix3 n (rowOf t l) d))
    (H1 : ∀ (n : Fin 8) (mm : Fin 256) (d : Fin 512), x1 (ix3 n mm d) = X0 (ix3 n (colOf t mm) d)) :
    innV x0 x1 = tile3 (val_main_v8 (F := Ideal) X0) t := by
  funext j
  obtain ⟨n, l, mm, rfl⟩ : ∃ (n : Fin 8) (l : Fin 512) (mm : Fin 256), j = ix3 n l mm := ⟨j 0, j 1, j 2, eq_ix3 j⟩
  rw [tile3_ix, val_main_v8_apply]
  unfold innV
  refine (Ideal.matmul_constant_zero_apply dot_S8x512x512_S8x256x512_S8x512x256_2_2_1_1_0_0 none _ _ (ix3 n l mm)).trans ?_
  rw [← Equiv.sum_comp (contrEquiv1 dot_S8x512x512_S8x256x512_S8x512x256_2_2_1_1_0_0 512 rfl rfl).symm]
  refine Finset.sum_congr rfl fun k _ => ?_
  have hk := contrEquiv1_symm_val dot_S8x512x512_S8x256x512_S8x512x256_2_2_1_1_0_0 512 rfl rfl k
  have el : dot_S8x512x512_S8x256x512_S8x512x256_2_2_1_1_0_0.lhsIdx (ix3 n l mm) ((contrEquiv1 dot_S8x512x512_S8x256x512_S8x512x256_2_2_1_1_0_0 512 rfl rfl).symm k) = ix3 n l k := funext fun a => Fin.ext (by
    match a with
    | ⟨0, _⟩ => exact klhs0 _ _
    | ⟨1, _⟩ => exact klhs1 _ _
    | ⟨2, _⟩ => exact (klhs2 _ _).trans hk)
  have er : dot_S8x512x512_S8x256x512_S8x512x256_2_2_1_1_0_0.rhsIdx (ix3 n l mm) ((contrEquiv1 dot_S8x512x512_S8x256x512_S8x512x256_2_2_1_1_0_0 512 rfl rfl).symm k) = ix3 n mm k := funext fun a => Fin.ext (by
    match a with
    | ⟨0, _⟩ => exact krhs0 _ _
    | ⟨1, _⟩ => exact krhs1 _ _
    | ⟨2, _⟩ => exact (krhs2 _ _).trans hk)
  rw [el, er, shapeCast_self, shapeCast_self, H0, H1]
  have e1 : lidx_main_v8 (ix3 n (rowOf t l) (colOf t mm)) k = ix3 n (rowOf t l) k := funext fun a => Fin.ext (by
    match a with
    | ⟨0, _⟩ => rfl
    | ⟨1, _⟩ => rfl
    | ⟨2, _⟩ => rfl)
  have e2 : ridx_main_v8 (ix3 n (rowOf t l) (colOf t mm)) k = ix3 n (colOf t mm) k := funext fun a => Fin.ext (by
    match a with
    | ⟨0, _⟩ => rfl
    | ⟨1, _⟩ => rfl
    | ⟨2, _⟩ => rfl)
  rw [e1, e2]

/-! ### The label test -/

/-- A one-bit word widened and read signed is the bit read unsigned. -/
theorem bit_float (b : BitVec 1) :
    FloatOps.sitofp (F := Ideal) .f32 (b.setWidth 32) = FloatOps.uitofp (F := Ideal) .f32 b := by
  have h1 : (BitVec.setWidth 32 b).toInt = (b.toNat : ℤ) := by revert b; decide
  show (((BitVec.setWidth 32 b).toInt : ℝ) : EReal) = ((b.toNat : ℝ) : EReal)
  rw [h1, Int.cast_natCast]

theorem q2V_at (x2 : Vec Ideal S8x512 .i32) (n : Fin 8) (l : Fin 512) (mm : Fin 256) :
    k0_pay5 (F := Ideal) x2 (ix3 n l mm) = x2 (ix2 n l) := by
  unfold k0_pay5
  rw [bcast_q, cast_q]

theorem k3V_at (x3 : Vec Ideal S8x256 .i32) (n : Fin 8) (l : Fin 512) (mm : Fin 256) :
    k0_pay6 (F := Ideal) x3 (ix3 n l mm) = x3 (ix2 n mm) := by
  unfold k0_pay6
  rw [bcast_k, cast_k]

theorem y_tile (X1 : (⟨S8x2048, .i32⟩ : BufTy).Contents (Elt Ideal)) (t : Fin 32) (x2 : Vec Ideal S8x512 .i32) (x3 : Vec Ideal S8x256 .i32)
    (H2 : ∀ (n : Fin 8) (l : Fin 512), x2 (ix2 n l) = X1 (ix2 n (rowOf t l)))
    (H3 : ∀ (n : Fin 8) (mm : Fin 256), x3 (ix2 n mm) = X1 (ix2 n (colOf t mm))) :
    yV x2 x3 = tile3 (val_main_v5 (F := Ideal) X1) t := by
  funext j
  obtain ⟨n, l, mm, rfl⟩ : ∃ (n : Fin 8) (l : Fin 512) (mm : Fin 256), j = ix3 n l mm := ⟨j 0, j 1, j 2, eq_ix3 j⟩
  rw [tile3_ix, val_main_v5_apply, val_main_v4_apply, val_main_v2_apply, val_main_v0_apply, val_main_v3_apply, val_main_v1_apply]
  have e2 : idx_main_v0 (idx_main_v2 (ix3 n (rowOf t l) (colOf t mm))) = ix2 n (rowOf t l) := funext fun a => Fin.ext (by
    match a with
    | ⟨0, _⟩ => rfl
    | ⟨1, _⟩ => rfl)
  have e3 : idx_main_v1 (idx_main_v3 (ix3 n (rowOf t l) (colOf t mm))) = ix2 n (colOf t mm) := funext fun a => Fin.ext (by
    match a with
    | ⟨0, _⟩ => rfl
    | ⟨1, _⟩ => rfl)
  rw [e2, e3]
  show FloatOps.sitofp (F := Ideal) .f32 ((IntOp.cmpi .eq (k0_pay5 (F := Ideal) x2 (ix3 n l mm)) (k0_pay6 (F := Ideal) x3 (ix3 n l mm))).setWidth 32) = _
  rw [q2V_at, k3V_at, H2, H3]
  exact bit_float _

/-! ## The tile -/

theorem pay3_tile (X0 : FVec Ideal S8x2048x512 .f32) (t : Fin 32) (x0 : Vec Ideal S8x512x512 .bf16) (x1 : Vec Ideal S8x256x512 .bf16)
    (H0 : ∀ (n : Fin 8) (l : Fin 512) (d : Fin 512), x0 (ix3 n l d) = X0 (ix3 n (rowOf t l) d))
    (H1 : ∀ (n : Fin 8) (mm : Fin 256) (d : Fin 512), x1 (ix3 n mm d) = X0 (ix3 n (colOf t mm) d)) :
    k0_pay3 (F := Ideal) x0 x1 = tile3 (val_main_v18 (F := Ideal) X0) t := by
  rw [pay3_eq, sqq_tile X0 t x0 H0, sqk_tile X0 t x1 H1, inn_tile X0 t x0 x1 H0 H1]
  rfl

theorem pay4_tile (X0 : FVec Ideal S8x2048x512 .f32) (t : Fin 32) (x0 : Vec Ideal S8x512x512 .bf16) (x1 : Vec Ideal S8x256x512 .bf16)
    (H0 : ∀ (n : Fin 8) (l : Fin 512) (d : Fin 512), x0 (ix3 n l d) = X0 (ix3 n (rowOf t l) d))
    (H1 : ∀ (n : Fin 8) (mm : Fin 256) (d : Fin 512), x1 (ix3 n mm d) = X0 (ix3 n (colOf t mm) d)) :
    k0_pay4 (F := Ideal) x0 x1 = tile3 (val_main_v23 (F := Ideal) X0) t := by
  rw [pay4_eq, pay3_tile X0 t x0 x1 H0 H1]
  rfl

/-- The body's last store at row (n, l) of the row tile: what the accumulator held there plus the losses of that row
    against the 256 rows of the column tile. -/
theorem tilePay_at (X0 : FVec Ideal S8x2048x512 .f32) (X1 : (⟨S8x2048, .i32⟩ : BufTy).Contents (Elt Ideal)) (t : Fin 32)
    (x0 : Vec Ideal S8x512x512 .bf16) (x1 : Vec Ideal S8x256x512 .bf16) (x2 : Vec Ideal S8x512 .i32) (x3 : Vec Ideal S8x256 .i32)
    (H0 : ∀ (n : Fin 8) (l : Fin 512) (d : Fin 512), x0 (ix3 n l d) = X0 (ix3 n (rowOf t l) d))
    (H1 : ∀ (n : Fin 8) (mm : Fin 256) (d : Fin 512), x1 (ix3 n mm d) = X0 (ix3 n (colOf t mm) d))
    (H2 : ∀ (n : Fin 8) (l : Fin 512), x2 (ix2 n l) = X1 (ix2 n (rowOf t l)))
    (H3 : ∀ (n : Fin 8) (mm : Fin 256), x3 (ix2 n mm) = X1 (ix2 n (colOf t mm)))
    (xo : Vec Ideal S8x512 .f32) (n : Fin 8) (l : Fin 512) :
    tilePay (F := Ideal) x0 x1 x2 x3 xo (ix2 n l)
      = xo (ix2 n l) + ∑ mm : Fin 256, val_main_v37 (F := Ideal) X0 X1 (ix3 n (rowOf t l) (colOf t mm)) := by
  rw [tilePay_eq, pay3_tile X0 t x0 x1 H0 H1, pay4_tile X0 t x0 x1 H0 H1, y_tile X1 t x2 x3 H2 H3]
  show shapeCast S8x512 xo shapeCasts_S8x512_S8x512 (ix2 n l) + _ = _
  rw [shapeCast_self]
  refine congrArg (xo (ix2 n l) + ·) ((lane3 _ _ _ _ n l).trans (Finset.sum_congr rfl fun mm _ => ?_))
  rfl

end Cert.KernelIdeal.Acc

end
-- ==== Proof.KI.Run.lean ====
/-
  The run of the whole program: one host line (the change of format of the predictions), the kernel region over
  the 4 x 8 grid, then four host lines (the sum of the row sums and the division by the number of pairs).

  Two things are particular to this program. The kernel is handed the cast predictions twice (as row tiles and as
  column tiles) and the labels twice: each of those two arrays is split between its two windows, half the share
  each, when the region is entered; both halves are only read. And the lines after the region touch just the
  region's result and four scalars, so they run within that small set of buffers while the shared arrays stay with
  their windows.
-/
import proofs.«149102_j6339371729129_2_alg».proof.Proof.KI.AccData
import Idealize.ShloMosaic.Lib.Pipeline.FrameSuffix

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the line before the region, the region, the lines after it. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The arrays at entry: the two shared ones split in halves -/

/-- The proof data's arrays, each whole, at its share. -/
theorem arrays_eq' (c : Dev nD) (G : (w : Fin cfg0.W) → Buf (Elt F) ((cfg0.win w).arr.view.loc (c.tc : Thread nD τ))) :
    (dats m 0 c).arrays G = bigSep Finset.univ fun w : Fin cfg0.W =>
      ((((c.tc : Thread nD τ).loc (Pipeline.arrRef spec0 w)) ↦{(dats m 0 c).share w} G w : sProp 𝕄)) := by
  unfold Pipeline.Dat.arrays
  exact bigSep_congr fun w _ => by rw [(arr_whole0 w).set_eq_univ]

/-- The three distinct buffers behind the five windows' arrays, whole at the full share, make the five windows'
    arrays at their shares: the cast predictions halved between windows 0 and 1, the labels between windows 2 and 3. -/
theorem hsplit (c : Dev nD) :
    (Pipeline.arrBufs spec0 c (V m c) : sProp 𝕄) ⊢ (dats m 0 c).arrays ((dats m 0 c).arrAt · 0) := by
  rw [arrays_eq', bigSep_W0]
  unfold Pipeline.arrBufs
  rw [bigSep_eq_bigSepL_of_eq [main_v0, main_arg1, main_v1] (by decide) (by decide)]
  refine (show iprop((((c.tc : Thread nD τ).loc main_v0) ↦{fullShare} V m c main_v0) ∗ (((c.tc : Thread nD τ).loc main_arg1) ↦{fullShare} V m c main_arg1)
    ∗ (((c.tc : Thread nD τ).loc main_v1) ↦{fullShare} V m c main_v1)) ⊢ _ from ?_)
  iintro ⟨H0, H1, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H4

/-! ## The lines after the region -/

/-- The TensorCore's references as device buffers. -/
abbrev devEmb : Ref sig .tc ↪ DevRef τ sig := ⟨Proc.devRef (sig := sig) (.tc : Proc τ), Proc.devRef_injective _⟩

/-- The references the lines after the region run within: the region's result and the buffers that bypass the region. -/
def tailT : Finset (Ref sig .tc) := insert main_v1 (Pipeline.restRefs sig spec0)
def tailS : Finset (DevRef τ sig) := tailT.map devEmb

theorem v1_not_rest : main_v1 ∉ Pipeline.restRefs sig spec0 := by
  intro h
  have := (Finset.mem_sdiff.mp h).2
  exact this (Finset.mem_image.mpr ⟨4, Finset.mem_univ _, rfl⟩)

theorem mem_rest_arg0 : main_arg0 ∈ Pipeline.restRefs sig spec0 := Pipeline.mem_restRefs_of main_arg0 (by decide) (by decide)
theorem mem_rest_cst : main_cst ∈ Pipeline.restRefs sig spec0 := Pipeline.mem_restRefs_of main_cst (by decide) (by decide)
theorem mem_rest_v2 : main_v2 ∈ Pipeline.restRefs sig spec0 := Pipeline.mem_restRefs_of main_v2 (by decide) (by decide)
theorem mem_rest_cst0 : main_cst_0 ∈ Pipeline.restRefs sig spec0 := Pipeline.mem_restRefs_of main_cst_0 (by decide) (by decide)
theorem mem_rest_v3 : main_v3 ∈ Pipeline.restRefs sig spec0 := Pipeline.mem_restRefs_of main_v3 (by decide) (by decide)

theorem memS (r : Ref sig .tc) (h : r ∈ tailT) : Proc.devRef (τ := τ) .tc r ∈ tailS := Finset.mem_map_of_mem devEmb h

theorem tail_sub : ∀ op ∈ (hostOps1 : List (HloOp τ sig (Elt F))), op.bufs ⊆ tailS := by
  intro op hop
  simp only [hostOps1, List.mem_cons, List.mem_nil_iff, or_false] at hop
  have h1 : main_v1 ∈ tailT := Finset.mem_insert_self _ _
  have hc : main_cst ∈ tailT := Finset.mem_insert_of_mem mem_rest_cst
  have h2 : main_v2 ∈ tailT := Finset.mem_insert_of_mem mem_rest_v2
  have hc0 : main_cst_0 ∈ tailT := Finset.mem_insert_of_mem mem_rest_cst0
  have h3 : main_v3 ∈ tailT := Finset.mem_insert_of_mem mem_rest_v3
  rcases hop with rfl | rfl | rfl | rfl
  · rw [StableHlo.nullary_bufs]; exact Finset.singleton_subset_iff.mpr (memS _ hc)
  · rw [StableHlo.binary_bufs]
    exact Finset.insert_subset (memS _ h1) (Finset.insert_subset (memS _ hc) (Finset.singleton_subset_iff.mpr (memS _ h2)))
  · rw [StableHlo.nullary_bufs]; exact Finset.singleton_subset_iff.mpr (memS _ hc0)
  · rw [StableHlo.binary_bufs]
    exact Finset.insert_subset (memS _ h2) (Finset.insert_subset (memS _ hc0) (Finset.singleton_subset_iff.mpr (memS _ h3)))

/-- No line after the region writes a reference outside the four scalars. -/
theorem tail_not_written (b : Ref sig .tc) (hb : b ≠ main_cst ∧ b ≠ main_v2 ∧ b ≠ main_cst_0 ∧ b ≠ main_v3) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- The line before the region writes only the cast predictions. -/
theorem head_not_written (b : Ref sig .tc) (hb : b ≠ main_v0) :
    ∀ op ∈ (List.flatten [hostOps0 (F := F)]), Proc.devRef .tc b ∉ op.writes := by
  intro op hop
  simp only [List.flatten_cons, List.flatten_nil, List.append_nil, List.mem_cons, List.mem_nil_iff, or_false] at hop
  rcases hop with rfl
  simp only [StableHlo.unary_writes, Finset.mem_singleton]
  exact StableHlo.devRef_ne_of_ne hb

/-- The buffers when the region is left, as a valuation: the region's result at what the write-backs made of it,
    every other buffer as the region found it. -/
def Wt (c : Dev nD) : Valuation τ sig (Elt F) := by
  classical exact Function.update (V₀ m c) (Proc.devRef .tc main_v1) ((dats m 0 c).arrAt 4 cfg0.N)

theorem Wt_v1 (c : Dev nD) : Wt m c (Proc.devRef .tc main_v1) = (dats m 0 c).arrAt 4 cfg0.N := by
  unfold Wt; exact Function.update_self _ _ _

theorem Wt_ne (c : Dev nD) (r : Ref sig .tc) (h : r ≠ main_v1) : Wt m c (Proc.devRef .tc r) = V₀ m c (Proc.devRef .tc r) := by
  unfold Wt; exact Function.update_of_ne (StableHlo.devRef_ne_of_ne h) _ _

/-- The buffers after the lines that follow the region. -/
def Vt (c : Dev nD) (b : Ref sig .tc) : Buf (Elt F) ((c : Thread nD τ).loc b) := StableHlo.after hostOps1 (Wt m c) (Proc.devRef .tc b)

/-- The bypassing buffers do not include the region's result: at them the exit valuation is the entry one. -/
theorem rest_Wt (c : Dev nD) :
    (Pipeline.unscopedRest spec0 c (fun b => Wt m c (Proc.devRef .tc b)) : sProp 𝕄) = Pipeline.unscopedRest spec0 c (V m c) := by
  unfold Pipeline.unscopedRest
  exact bigSep_congr fun b hb => by dsimp only; rw [Wt_ne m c b (fun e => v1_not_rest (e ▸ hb))]

/-- The small set held at a valuation: the region's result and the bypassing buffers. -/
theorem held_tailS (c : Dev nD) (Wv : Valuation τ sig (Elt F)) :
    (StableHlo.held (c.tc : Thread nD τ) tailS Wv : sProp 𝕄)
      = iprop((((c.tc : Thread nD τ).loc main_v1) ↦{fullShare} Wv (Proc.devRef .tc main_v1))
          ∗ Pipeline.unscopedRest spec0 c (fun b => Wv (Proc.devRef .tc b))) := by
  unfold StableHlo.held tailS tailT Pipeline.unscopedRest
  rw [bigSep_map, bigSep_insert v1_not_rest]
  rfl

/-- The end of the lines: nothing left to run. -/
theorem wp_chain_nil (c : Dev nD) (Q' : PUnit → sProp 𝕄) :
    Q' ⟨⟩ ⊢ wp frame (wpE (defs (F := F)) (Variants.lift Variants.none) (c.tc : Thread nD τ) none) Set.univ (Pipeline.chain []) Q' := by
  rw [Pipeline.chain_nil, wp_pure]; iintro H; imodintro; iexact H

-- (the host-line rule is stated for any thread and used at the TensorCore's: types are compared up to unfolding here)
set_option backward.isDefEq.respectTransparency.types false in
/-- The lines after the region: from the region's exit — the boundary, the windows' arrays at their final contents, the
    bypassing buffers as the region found them — they run within the result and the bypassing buffers and hand back
    the arrays as they were and the bypassing buffers at what the lines made of them. -/
theorem htail (c : Dev nD) (Q' : PUnit → sProp 𝕄) :
    iprop((iprop((dats m 0 c).arrays ((dats m 0 c).arrAt · cfg0.N) ∗ Pipeline.unscopedRest spec0 c (Vt m c)) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, arrays_eq', bigSep_W0, Pipeline.chain_cons]
  have hE : (StableHlo.held (c.tc : Thread nD τ) tailS (StableHlo.after hostOps1 (Wt m c)) : sProp 𝕄) ⊢ _ :=
    Entails.of_eq (held_tailS (F := F) c (StableHlo.after hostOps1 (Wt m c)))
  iintro ⟨Hk, Hb, ⟨A0, A1, A2, A3, A4⟩, HZ⟩
  iapply (StableHlo.wp_seq (Variants.lift Variants.none) none Set.univ c tailS (fun _ => Pipeline.chain []) hostOps1
    tail_sub (fun op h => (List.forall_iff_forall_mem.mp hostOps1_fresh) op h) (Wt m c)) $$ [Hb A4 HZ]
  · isplitl [Hb]; · iexact Hb
    rw [held_tailS, rest_Wt]
    isplitl [A4]
    · rw [Wt_v1]; iexact A4
    · iexact HZ
  iintro ⟨Hb, Hh⟩
  iapply (wp_chain_nil (F := F) c Q')
  iapply Hk
  ihave Hh' := hE $$ Hh
  icases Hh' with ⟨A4, HZ⟩
  isplitr [HZ]
  · isplitl [A0]; · iexact A0
    isplitl [A1]; · iexact A1
    isplitl [A2]; · iexact A2
    isplitl [A3]; · iexact A3
    rw [StableHlo.after_of_forall_not_mem hostOps1 (Wt m c) (tail_not_written main_v1 (by decide)), Wt_v1]
    iexact A4
  · iexact HZ

/-! ## The run -/

/-- The launch element: the pipeline library's, at the staging cells and the pipeline's transfers. -/
abbrev u₀ : UR sig nD τ := initOf (Pipeline.cells cfgs cellOf_inj) (Pipeline.launchToks cfgs cellOf_inj)

-- (the launch theorem's conclusion is matched with this statement up to unfolding of definitions in types)
set_option backward.isDefEq.respectTransparency.types false in
/-- At the compiled mesh, for any float values, from any memory with zero counters: every weakly fair execution of @main
    terminates, nothing faulting, and every final state has each window's array at what the write-backs made of it and
    every buffer that bypasses the region at what the lines after the region made of it. -/
theorem run_main : θ_run defs (onTc (τ := τ) (main (F := F))) (s₀ m ρ) (Pipeline.FramePost cfgs (dats m) 0 (Vt m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := u₀)
    (hu₀ := by
      iintro Hu; imodintro
      isplitl [Hu]; · iapply (show (ownU _ : sProp 𝕄) ⊢ BI.own (emb₁ u₀) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRest (Ix := Unit) (Name := ℕ) (U := UR sig nD τ) (Lvl := ℕ) spec0 c (Vt m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefs sig spec0, s.mem ((c.tc : Thread nD τ).loc b) = Vt m c b)
    (hY := fun c s' => by
      iintro ⟨-, HU, HSI⟩
      unfold Pipeline.unscopedRest
      imodintro
      iapply (pointsTo_read_all (Pipeline.restRefs sig spec0) (fun b => (c.tc : Thread nD τ).loc b) (Vt m c) s')
      isplitl [HU] <;> iassumption)
    (hQ := fun s h c => ⟨(h c).1, (h c).2.2⟩)

/-! ## The arguments end unchanged -/

theorem V_arg0 (c : Dev nD) : V m c main_arg0 = m ((c : Thread nD τ).loc main_arg0) :=
  StableHlo.after_of_forall_not_mem (b := Proc.devRef .tc main_arg0) _ _ (head_not_written main_arg0 (by decide))

theorem V_arg1 (c : Dev nD) : V m c main_arg1 = m ((c : Thread nD τ).loc main_arg1) :=
  StableHlo.after_of_forall_not_mem (b := Proc.devRef .tc main_arg1) _ _ (head_not_written main_arg1 (by decide))

/-- The predictions bypass the region and no line after it writes them. -/
theorem Vt_arg0 (c : Dev nD) : Vt m c main_arg0 = m ((c : Thread nD τ).loc main_arg0) := by
  unfold Vt
  rw [StableHlo.after_of_forall_not_mem hostOps1 (Wt m c) (tail_not_written main_arg0 (by decide)), Wt_ne m c main_arg0 (by decide)]
  exact V_arg0 m c

/-- THE FRAME, at any float values: the program runs to the end, nothing faults, and both argument arrays end as
    launched — the predictions are no window's array and no host line writes them; the labels are an input
    window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 mem_rest_arg0).trans (Vt_arg0 m c),
    ((h c).1 2).trans (((dats m 0 c).arrAt_in 2 rfl _).trans ((A_eq m c 2).trans (V_arg1 m c)))⟩) (run_main m ρ)

end Cert.KernelIdeal.Acc

end
-- ==== Proof.KI.Final.lean ====
/-
  From the tiles to the number.

  Row tile qi is accumulated over the eight points 8 qi .. 8 qi + 7; after the last of them the accumulator holds, at
  row (n, l), the sum over all eight column tiles — that is over all 2048 columns — of the losses of array row
  512 qi + l of batch n, and that is what is written back into block qi of the region's result. The four
  write-backs tile the result, so the result holds every row's loss sum. The host lines after the region add those
  up and divide by the number of pairs; the reference adds all the pair losses up and divides by the same number.
  Sums on the extended reals may be regrouped freely, so the two numbers are one.
-/
import proofs.«149102_j6339371729129_2_alg».proof.Proof.KI.TileLeaves
import proofs.«149102_j6339371729129_2_alg».proof.Proof.KI.Run
import Idealize.ShloMosaic.Lib.StableHlo.Run

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.ReferenceIdeal.Read
open Cert.LibRank3Sums

variable (m : (ℓ : Loc nD τ sig) → Buf (Elt Ideal) ℓ) (ρ : Dev nD → PrngReg)

/-! ## The printed index maps over the grid -/

theorem idx_all : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8 :=
  (by decide +kernel : ∀ t : Fin grid0.N, _)

/-! ## The arrays as the region finds them -/

/-- The change of format before the region is the identity at the exact values. -/
theorem V_v0 (c : Dev nD) (j : S8x2048x512.Idx) : V m c main_v0 j = m ((c : Thread nD τ).loc main_arg0) j := by
  have e : V m c main_v0
      = (truncf (F := Ideal) .bf16 (m ((c : Thread nD τ).loc main_arg0) : FVec Ideal S8x2048x512 .f32) bitsLt_bf16_f32 : FVec Ideal S8x2048x512 .bf16) := by
    dsimp only [V, V₀]
    simp only [hostOps0, List.flatten_cons, List.flatten_nil, List.append_nil]
    after_results
  rw [e]; rfl

/-! ## The four input blocks at a point -/

theorem blk0 (c : Dev nD) (t : Fin cfg0.N) (n : Fin 8) (l : Fin 512) (d : Fin 512) :
    (iblk m c 0 t : Vec Ideal S8x512x512 .bf16) (ix3 n l d)
      = m ((c : Thread nD τ).loc main_arg0) (ix3 n (rowOf (t.cast N_0) l) d) := by
  refine Eq.trans ?_ (V_v0 m c _)
  unfold iblk
  rw [View.read_apply]
  show V m c main_v0 _ = V m c main_v0 _
  congr 1
  funext a; apply Fin.ext
  obtain ⟨e0, e1, e2, -⟩ := idx_all t
  match a with
  | ⟨0, _⟩ => show win0_0.index t (0 : Fin 3) * 8 + 1 * n.val = n.val; omega
  | ⟨1, _⟩ => show win0_0.index t (1 : Fin 3) * 512 + 1 * l.val = 512 * (t.val / 8) + l.val; omega
  | ⟨2, _⟩ => show win0_0.index t (2 : Fin 3) * 512 + 1 * d.val = d.val; omega

theorem blk1 (c : Dev nD) (t : Fin cfg0.N) (n : Fin 8) (mm : Fin 256) (d : Fin 512) :
    (iblk m c 1 t : Vec Ideal S8x256x512 .bf16) (ix3 n mm d)
      = m ((c : Thread nD τ).loc main_arg0) (ix3 n (colOf (t.cast N_0) mm) d) := by
  refine Eq.trans ?_ (V_v0 m c _)
  unfold iblk
  rw [View.read_apply]
  show V m c main_v0 _ = V m c main_v0 _
  congr 1
  funext a; apply Fin.ext
  obtain ⟨-, -, -, e0, e1, e2, -⟩ := idx_all t
  match a with
  | ⟨0, _⟩ => show win0_1.index t (0 : Fin 3) * 8 + 1 * n.val = n.val; omega
  | ⟨1, _⟩ => show win0_1.index t (1 : Fin 3) * 256 + 1 * mm.val = 256 * (t.val % 8) + mm.val; omega
  | ⟨2, _⟩ => show win0_1.index t (2 : Fin 3) * 512 + 1 * d.val = d.val; omega

theorem blk2 (c : Dev nD) (t : Fin cfg0.N) (n : Fin 8) (l : Fin 512) :
    (iblk m c 2 t : Vec Ideal S8x512 .i32) (ix2 n l)
      = m ((c : Thread nD τ).loc main_arg1) (ix2 n (rowOf (t.cast N_0) l)) := by
  refine Eq.trans ?_ (congrFun (V_arg1 m c) _)
  unfold iblk
  rw [View.read_apply]
  show V m c main_arg1 _ = V m c main_arg1 _
  congr 1
  funext a; apply Fin.ext
  obtain ⟨-, -, -, -, -, -, e0, e1, -⟩ := idx_all t
  match a with
  | ⟨0, _⟩ => show win0_2.index t (0 : Fin 2) * 8 + 1 * n.val = n.val; omega
  | ⟨1, _⟩ => show win0_2.index t (1 : Fin 2) * 512 + 1 * l.val = 512 * (t.val / 8) + l.val; omega

theorem blk3 (c : Dev nD) (t : Fin cfg0.N) (n : Fin 8) (mm : Fin 256) :
    (iblk m c 3 t : Vec Ideal S8x256 .i32) (ix2 n mm)
      = m ((c : Thread nD τ).loc main_arg1) (ix2 n (colOf (t.cast N_0) mm)) := by
  refine Eq.trans ?_ (congrFun (V_arg1 m c) _)
  unfold iblk
  rw [View.read_apply]
  show V m c main_arg1 _ = V m c main_arg1 _
  congr 1
  funext a; apply Fin.ext
  obtain ⟨-, -, -, -, -, -, -, -, e0, e1, -⟩ := idx_all t
  match a with
  | ⟨0, _⟩ => show win0_3.index t (0 : Fin 2) * 8 + 1 * n.val = n.val; omega
  | ⟨1, _⟩ => show win0_3.index t (1 : Fin 2) * 256 + 1 * mm.val = 256 * (t.val % 8) + mm.val; omega

/-! ## One point's contribution, and the accumulation in closed form -/

/-- The losses of the rows of point t's row tile against the 256 rows of its column tile, summed over those. -/
def rowTile (X0 : FVec Ideal S8x2048x512 .f32) (X1 : (⟨S8x2048, .i32⟩ : BufTy).Contents (Elt Ideal)) (t : Fin 32) :
    S8x512.Idx → EReal :=
  fun j => ∑ mm : Fin 256, val_main_v37 (F := Ideal) X0 X1 (ix3 (j 0) (rowOf t (j 1)) (colOf t mm))

/-- The same by position, zero past the grid. -/
def rowTileN (X0 : FVec Ideal S8x2048x512 .f32) (X1 : (⟨S8x2048, .i32⟩ : BufTy).Contents (Elt Ideal)) (tv : ℕ) :
    S8x512.Idx → EReal :=
  fun j => if h : tv < 32 then rowTile X0 X1 ⟨tv, h⟩ j else 0

theorem pay2_zero (j : S8x512.Idx) : k0_pay2 (F := Ideal) j = 0 := Ideal.ofBits_zero_f32

/-- At point t the body leaves, over contents xo, xo plus the point's contribution. -/
theorem tile_step (c : Dev nD) (t : Fin cfg0.N) (xo : Vec Ideal S8x512 .f32) (j : S8x512.Idx) :
    tilePay (F := Ideal) (iblk m c 0 t) (iblk m c 1 t) (iblk m c 2 t) (iblk m c 3 t) xo j
      = xo j + rowTile (m ((c : Thread nD τ).loc main_arg0)) (m ((c : Thread nD τ).loc main_arg1)) (t.cast N_0) j := by
  obtain ⟨n, l, rfl⟩ : ∃ (n : Fin 8) (l : Fin 512), j = ix2 n l := ⟨j 0, j 1, eq_ix2 j⟩
  exact tilePay_at (m ((c : Thread nD τ).loc main_arg0)) (m ((c : Thread nD τ).loc main_arg1)) (t.cast N_0) _ _ _ _
    (blk0 m c t) (blk1 m c t) (blk2 m c t) (blk3 m c t) xo n l

/-- After position n the accumulator holds the contributions of the points of n's row tile up to n. -/
theorem accAt_eq (c : Dev nD) : ∀ (n : ℕ) (h : n < cfg0.N) (j : S8x512.Idx),
    accAt m c n h j = ∑ s ∈ Finset.range (n % 8 + 1),
      rowTileN (m ((c : Thread nD τ).loc main_arg0)) (m ((c : Thread nD τ).loc main_arg1)) (n - n % 8 + s) j
  | 0, h, j => by
    refine (congrFun (accAt_reset m c ⟨0, h⟩ rfl) j).trans ?_
    rw [outReset_eq, tile_step, pay2_zero, zero_add]
    show _ = ∑ s ∈ Finset.range 1, _
    rw [Finset.sum_range_one]
    unfold rowTileN
    rw [dif_pos (by decide)]
    rfl
  | n + 1, h, j => by
    have hN : cfg0.N = 32 := N_0
    by_cases h0 : (n + 1) % 8 = 0
    · refine (congrFun (accAt_reset m c ⟨n + 1, h⟩ h0) j).trans ?_
      rw [outReset_eq, tile_step, pay2_zero, zero_add, h0]
      show _ = ∑ s ∈ Finset.range 1, _
      rw [Finset.sum_range_one]
      unfold rowTileN
      rw [dif_pos (by omega)]
      exact congrArg (fun tt => rowTile _ _ tt j) (Fin.ext (by show n + 1 = n + 1 - 0 + 0; omega))
    · refine (congrFun (accAt_carry m c ⟨n + 1, h⟩ h0) j).trans ?_
      rw [outCarry_eq, tile_step]
      show accAt m c n _ j + _ = _
      rw [accAt_eq c n _ j]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]
      congr 1
      unfold rowTileN
      rw [dif_pos (by omega)]
      rfl

/-! ## The region's result -/

/-- Every row's losses summed over all 2048 columns, column tile by column tile. -/
def rowSums (X0 : FVec Ideal S8x2048x512 .f32) (X1 : (⟨S8x2048, .i32⟩ : BufTy).Contents (Elt Ideal)) : S8x2048.Idx → EReal :=
  fun i => ∑ k : Fin 8, ∑ mm : Fin 256,
    val_main_v37 (F := Ideal) X0 X1 (ix3 (i 0) (i 1) ⟨256 * k.val + mm.val, by have := k.isLt; have := mm.isLt; omega⟩)

/-- What a writing-back point (the last of a row tile) writes back is that row tile's block of the row sums. -/
theorem flushed_eq (c : Dev nD) (t : Fin cfg0.N) (hf : (cfg0.win 4).flush t = true) :
    (dats m 0 c).flushed 4 t = ((cfg0.win 4).blk t).view.read (Elt Ideal)
      (rowSums (m ((c : Thread nD τ).loc main_arg0)) (m ((c : Thread nD τ).loc main_arg1))) := by
  have h7 : t.val % 8 = 7 := (flush0_4 t).mp hf
  have hN : t.val < 32 := lt_of_lt_of_eq t.isLt (show cfg0.N = 32 from N_0)
  show (cfg0.win 4).cut (grid0.coords t) ((dats m 0 c).after 4 t) = _
  rw [after4]
  funext j
  show accAt m c t.val t.isLt j = rowSums _ _ (((cfg0.win 4).blk t).view.emb j)
  obtain ⟨n, l, rfl⟩ : ∃ (n : Fin 8) (l : Fin 512), j = ix2 n l := ⟨j 0, j 1, eq_ix2 j⟩
  have hemb : ((cfg0.win 4).blk t).view.emb (ix2 n l)
      = ix2 n (⟨512 * (t.val / 8) + l.val, by have := l.isLt; omega⟩ : Fin 2048) := by
    funext a; apply Fin.ext
    obtain ⟨-, -, -, -, -, -, -, -, -, -, e0, e1⟩ := idx_all t
    match a with
    | ⟨0, _⟩ => show win0_4.index t (0 : Fin 2) * 8 + 1 * n.val = n.val; omega
    | ⟨1, _⟩ => show win0_4.index t (1 : Fin 2) * 512 + 1 * l.val = 512 * (t.val / 8) + l.val; omega
  rw [hemb, accAt_eq, h7, Finset.sum_range]
  unfold rowSums
  refine Finset.sum_congr rfl fun k _ => ?_
  unfold rowTileN
  rw [dif_pos (by have := k.isLt; omega)]
  unfold rowTile
  refine Finset.sum_congr rfl fun mm _ => ?_
  refine congrArg (val_main_v37 (F := Ideal) _ _) ?_
  funext a
  match a with
  | ⟨0, _⟩ => rfl
  | ⟨1, _⟩ => exact Fin.ext (by show 512 * ((t.val - 7 + k.val) / 8) + l.val = 512 * (t.val / 8) + l.val; have := k.isLt; omega)
  | ⟨2, _⟩ => exact Fin.ext (by show 256 * ((t.val - 7 + k.val) % 8) + mm.val = 256 * k.val + mm.val; have := k.isLt; omega)

theorem mem_blk4 (t : Fin cfg0.N) (i : S8x2048.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v1).slice (win0_4.rect t)).set ↔ _
  rw [View.set_slice_whole, Rect.mem_set_unit]
  exact Iff.rfl

/-- The four write-backs tile the result: row i is in the block of the last point of its row tile. -/
theorem covered (i : S8x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hN : cfg0.N = 32 := N_0
  have ht : 8 * ((i 1).val / 512) + 7 < cfg0.N := by omega
  refine ⟨⟨8 * ((i 1).val / 512) + 7, ht⟩, (flush0_4 _).mpr (by show (8 * ((i 1).val / 512) + 7) % 8 = 7; omega), ?_⟩
  rw [mem_blk4]
  obtain ⟨-, -, -, -, -, -, -, -, -, -, e0, e1⟩ := idx_all ⟨8 * ((i 1).val / 512) + 7, ht⟩
  have e1' : win0_4.index ⟨8 * ((i 1).val / 512) + 7, ht⟩ (1 : Fin 2) = (8 * ((i 1).val / 512) + 7) / 8 := e1
  intro a
  match a with
  | ⟨0, _⟩ =>
    show win0_4.index ⟨8 * ((i 1).val / 512) + 7, ht⟩ (0 : Fin 2) * 8 ≤ (i 0).val ∧ (i 0).val < win0_4.index ⟨8 * ((i 1).val / 512) + 7, ht⟩ (0 : Fin 2) * 8 + 8
    omega
  | ⟨1, _⟩ =>
    show win0_4.index ⟨8 * ((i 1).val / 512) + 7, ht⟩ (1 : Fin 2) * 512 ≤ (i 1).val ∧ (i 1).val < win0_4.index ⟨8 * ((i 1).val / 512) + 7, ht⟩ (1 : Fin 2) * 512 + 512
    omega

/-- So the region's result ends holding every row's loss sum. -/
theorem final4 (c : Dev nD) : (dats m 0 c).arrAt 4 cfg0.N
    = rowSums (m ((c : Thread nD τ).loc main_arg0)) (m ((c : Thread nD τ).loc main_arg1)) :=
  (dats m 0 c).arrAt_eq_of_cover 4 (rowSums (m ((c : Thread nD τ).loc main_arg0)) (m ((c : Thread nD τ).loc main_arg1)))
    (flushed_eq m c) covered

/-! ## Regrouping the total -/

/-- The 2048 columns are the 8 column tiles of 256. -/
theorem sum_cols {M : Type*} [AddCommMonoid M] (f : Fin 2048 → M) :
    ∑ x : Fin 2048, f x = ∑ k : Fin 8, ∑ mm : Fin 256, f ⟨256 * k.val + mm.val, by have := k.isLt; have := mm.isLt; omega⟩ := by
  rw [← Equiv.sum_comp (finProdFinEquiv (m := 8) (n := 256)) f, Fintype.sum_prod_type]
  refine Finset.sum_congr rfl fun k _ => Finset.sum_congr rfl fun mm _ => congrArg f (Fin.ext ?_)
  show mm.val + 256 * k.val = 256 * k.val + mm.val
  omega

/-- The row sums add up to the sum over all pairs. -/
theorem total (X0 : FVec Ideal S8x2048x512 .f32) (X1 : (⟨S8x2048, .i32⟩ : BufTy).Contents (Elt Ideal)) :
    ∑ i : S8x2048.Idx, rowSums X0 X1 i = ∑ p : Pairs.Idx, val_main_v37 (F := Ideal) X0 X1 p := by
  rw [sum_idx2, sum_idx3]
  refine Finset.sum_congr rfl fun n _ => Finset.sum_congr rfl fun L _ => ?_
  rw [sum_cols]
  rfl

/-! ## The lines after the region, and the result -/

theorem reduce_total (Y : S8x2048.Idx → EReal) (i : S_.Idx) :
    Host.reduceAdd (F := Ideal) Y (constant (F := Ideal) S_ .f32 0x00000000#32) reducesTo_S8x2048_S_d0_1 h_S_ i
      = 0 + ∑ j : S8x2048.Idx, Y j := by
  simp only [Host.reduceAdd, Ideal.hostReduceAdd_def]
  refine (Ideal.hostReduceAdd_total reducesTo_S8x2048_S_d0_1 (fun b => b.elim0) Y _ i).trans ?_
  exact congrArg (· + ∑ j : S8x2048.Idx, Y j) Ideal.ofBits_zero_f32

/-- What the lines after the region leave in the program's result: the sum of the region's result over a zero start,
    divided by the number of pairs. -/
theorem Vt_v3 (c : Dev nD) : Vt m c main_v3
    = Host.divf (F := Ideal) (Host.reduceAdd (F := Ideal) ((dats m 0 c).arrAt 4 cfg0.N) (constant (F := Ideal) S_ .f32 0x00000000#32)
        reducesTo_S8x2048_S_d0_1 h_S_) (constant (F := Ideal) S_ .f32 0x4C000000#32) := by
  unfold Vt
  dsimp only [hostOps1]
  after_results
  rw [Wt_v1]

/-- THE VALUE: the program's result is the reference's. -/
theorem result_eq (c : Dev nD) : Vt m c main_v3
    = val_main_v39 (F := Ideal) (m ((c : Thread nD τ).loc main_arg0)) (m ((c : Thread nD τ).loc main_arg1)) := by
  rw [Vt_v3, final4]
  funext i
  show FloatOps.hostDivf (F := Ideal) (Host.reduceAdd (F := Ideal) (rowSums _ _) (constant (F := Ideal) S_ .f32 0x00000000#32) reducesTo_S8x2048_S_d0_1 h_S_ i)
      (constant (F := Ideal) S_ .f32 0x4C000000#32 i) = _
  rw [reduce_total, total, val_main_v39_apply, val_main_v38_apply]
  refine congrArg₂ (FloatOps.hostDivf (F := Ideal)) (congrArg (· + _) ?_) rfl
  exact Ideal.ofBits_zero_f32.symm

/-- The run at the exact values, read: the result at the reference's value, both arguments as launched. -/
theorem run_value : θ_run defs (onTc (τ := τ) (main (F := Ideal))) ⟨m, fun _ => 0, ρ⟩ (fun r => ∀ c : Dev nD,
      r.2.mem ((c.tc : Thread nD τ).loc main_v3)
        = val_main_v39 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v3 mem_rest_v3).trans (result_eq m c),
    ((h c).2 main_arg0 mem_rest_arg0).trans (Vt_arg0 m c),
    ((h c).1 2).trans (((dats m 0 c).arrAt_in 2 rfl _).trans ((A_eq m c 2).trans (V_arg1 m c)))⟩) (run_main m ρ)

end Cert.KernelIdeal.Acc

end
-- ==== Proof.lean ====
/-
  The certificate of a contrastive loss: for 8 batches of 2048 rows of 512 numbers with integer labels, the mean over
  all pairs (l, m) of rows of a batch of
      0.1 · y · d2 + 0.3 · (1 − y) · max(2 − dist, 0)²,
  d2 the clamped squared distance of the two rows, dist its square root (zero where d2 is zero), y whether the two
  labels agree.

  The kernel tiles the pairs 512 rows by 256 rows over a 4 x 8 grid and accumulates, per row, the losses against
  each column tile; after the eight column tiles of a row tile it writes the row sums back, and the host adds those up
  and divides by the number of pairs. The reference forms all pair losses at once, adds them up and divides by the
  same number. At the exact extended reals the two are one number: the tiles' entries are the reference's entries
  (same squared norms, same inner products, same label test, same pointwise formula), and a sum of extended reals may
  be taken in any grouping.

  The three programs run to the end without a fault and leave their arguments as they found them: the kernel's two
  instances by the run of the pipeline (its two prediction windows share one array, as do its two label windows, each
  array split in halves between its windows and only read), the reference by its run as a line of host operations.
  The idealization rewrote nothing, so it is the program's own text read at the exact values.
-/
import proofs.«149102_j6339371729129_2_alg».proof.Defs
import proofs.«149102_j6339371729129_2_alg».proof.Proof.Gen.Kernel
import proofs.«149102_j6339371729129_2_alg».proof.Proof.Gen.KernelIdeal
import proofs.«149102_j6339371729129_2_alg».proof.Proof.Gen.ReferenceIdeal
import proofs.«149102_j6339371729129_2_alg».proof.Proof.Gen.Pre_finite_inputs
import proofs.«149102_j6339371729129_2_alg».proof.Proof.K.Run
import proofs.«149102_j6339371729129_2_alg».proof.Proof.KI.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Acc.frame (F := Bits) m ρ

theorem frame_ki : Cert.frame_KernelIdeal := fun m ρ _ => Cert.KernelIdeal.Acc.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both idealized programs end at the mean of the pair losses of the arguments they agree on. -/
theorem algebraic : Cert.algebraic_KernelIdeal_ReferenceIdeal := by
  intro m ρ m' ρ' _ hagree
  refine ⟨fun c => Cert.ReferenceIdeal.Read.val_main_v39 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
